-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x8192 : Shape := ⟨3, ![4, 3, 8192]⟩
abbrev S_ : Shape := ⟨0, ![]⟩

class Facts : Prop where
  bcast_S_S4x3x8192 : S_.BroadcastsInDim S4x3x8192 (![] : Fin 0 → Fin S4x3x8192.rank)
  reducesTo_S4x3x8192_S_d0_1_2 : S4x3x8192.ReducesTo [0, 1, 2] S_
  h_S_ : 0 < S_.numel

variable [Facts]

def fn {F : FTy → Type} [FloatOps F] (main_arg0 : FVec F S4x3x8192 .f32) (main_arg1 : FVec F S4x3x8192 .f32) : IVec S_ 1 :=
  let main_v0 : FVec F S4x3x8192 .f32 := Host.absf main_arg0
  let main_cst : FVec F S_ .f32 := constant S_ .f32 0x7F800000#32
  let main_v1 : FVec F S4x3x8192 .f32 := broadcastInDim S4x3x8192 ![] bcast_S_S4x3x8192 main_cst
  let main_v2 : IVec S4x3x8192 1 := cmpf .olt main_v0 main_v1
  let main_c : IVec S_ 1 := constantI S_ 1 1#1
  let main_v3 : IVec S_ 1 := (fun x v => Host.reduce IntOp.andi x v reducesTo_S4x3x8192_S_d0_1_2 h_S_) main_v2 main_c
  let main_v4 : FVec F S4x3x8192 .f32 := Host.absf main_arg1
  let main_cst_0 : FVec F S_ .f32 := constant S_ .f32 0x7F800000#32
  let main_v5 : FVec F S4x3x8192 .f32 := broadcastInDim S4x3x8192 ![] bcast_S_S4x3x8192 main_cst_0
  let main_v6 : IVec S4x3x8192 1 := cmpf .olt main_v4 main_v5
  let main_c_1 : IVec S_ 1 := constantI S_ 1 1#1
  let main_v7 : IVec S_ 1 := (fun x v => Host.reduce IntOp.andi x v reducesTo_S4x3x8192_S_d0_1_2 h_S_) main_v6 main_c_1
  let main_v8 : IVec S_ 1 := andi main_v3 main_v7
  main_v8
-- ==== Kernel.lean ====
abbrev S4x3x8192 : Shape := ⟨3, ![4, 3, 8192]⟩
abbrev S4x1x1 : Shape := ⟨3, ![4, 1, 1]⟩
abbrev S1x3x512 : Shape := ⟨3, ![1, 3, 512]⟩
abbrev S1x3x8192 : Shape := ⟨3, ![1, 3, 8192]⟩
abbrev S1x1x1 : Shape := ⟨3, ![1, 1, 1]⟩
abbrev S1x8192 : Shape := ⟨2, ![1, 8192]⟩
abbrev S1x1 : Shape := ⟨2, ![1, 1]⟩
abbrev S3x512 : Shape := ⟨2, ![3, 512]⟩
abbrev S3x8192 : Shape := ⟨2, ![3, 8192]⟩
abbrev S512 : Shape := ⟨1, ![512]⟩
abbrev S1x512 : Shape := ⟨2, ![1, 512]⟩
abbrev S8192 : Shape := ⟨1, ![8192]⟩
abbrev S512x8192 : Shape := ⟨2, ![512, 8192]⟩
abbrev S512x1 : Shape := ⟨2, ![512, 1]⟩
abbrev S1 : Shape := ⟨1, ![1]⟩
abbrev S_ : Shape := ⟨0, ![]⟩

abbrev nBuf : Space → Nat
  | .hbm => 13
  | .vmem => 10
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x1x1, .f32⟩
  | .hbm, ⟨3, _⟩ => ⟨S4x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x3x512, .f32⟩
  | .local _ .vmem, ⟨1, _⟩ => ⟨S1x3x512, .f32⟩
  | .local _ .vmem, ⟨2, _⟩ => ⟨S1x3x8192, .f32⟩
  | .local _ .vmem, ⟨3, _⟩ => ⟨S1x3x8192, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x8192, .f32⟩
  | .local _ .vmem, ⟨9, _⟩ => ⟨S1x1, .f32⟩
  | _, _ => ⟨S4x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_21 : BitVec 32 := 0#32
  let v42 : BitVec 1 := Scalar.cmpi .ne v41 c0_i32_21
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  inb_S1x3x8192_S1x3x8192_0_0_0 : ∀ a, (![0, 0, 0] : Fin 3 → Nat) a + S1x3x8192.size a ≤ S1x3x8192.size a
  h_S1x3x8192 : 0 < S1x3x8192.numel
  shapeCasts_S1x3x8192_S3x8192 : S1x3x8192.ShapeCasts S3x8192
  reduces_S3x512_S512 : S3x512.Reduces [0] S512
  shapeCasts_S512_S1x512 : S512.ShapeCasts S1x512
  reduces_S3x8192_S8192 : S3x8192.Reduces [0] S8192
  shapeCasts_S8192_S1x8192 : S8192.ShapeCasts S1x8192
  transposes_S1x512_p1_0_S512x1 : S1x512.Transposes [1, 0] S512x1
  broadcasts_S512x1_S512x8192 : S512x1.Broadcasts S512x8192
  broadcasts_S1x8192_S512x8192 : S1x8192.Broadcasts S512x8192
  reduces_S512x8192_S512 : S512x8192.Reduces [1] S512
  shapeCasts_S512_S512x1 : S512.ShapeCasts S512x1
  reduces_S512x8192_S8192 : S512x8192.Reduces [0] S8192
  reduces_S512x1_S1 : S512x1.Reduces [0] S1
  shapeCasts_S1_S1x1 : S1.ShapeCasts S1x1
  reduces_S1x8192_S1 : S1x8192.Reduces [1] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S4x1x1_S_d0_1_2 : S4x1x1.ReducesTo [0, 1, 2] S_
  h_S_ : 0 < S_.numel
  dot_S3x512_S3x8192_S512x8192_0_0_1_1_n_n_wf : DotDims.WF S3x512 S3x8192 S512x8192 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512.size a ≤ S4x3x8192.size a
  hwx0_0 : ∀ i : grid0.Coords, EltTy.bits .f32 = 32 ∨ (Rect.block (s := S4x3x8192) S1x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8192.size a ≤ S4x3x8192.size a
  hwx0_1 : ∀ i : grid0.Coords, EltTy.bits .f32 = 32 ∨ (Rect.block (s := S4x3x8192) S1x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S4x1x1.size a
  hwx0_3 : ∀ i : grid0.Coords, EltTy.bits .f32 = 32 ∨ (Rect.block (s := S4x1x1) S1x1x1.size (cc0_transform_3 i) (hinb0_3 i)).WholeWords (EltTy.packing .f32)

variable [Facts₀]

def dot_S3x512_S3x8192_S512x8192_0_0_1_1_n_n : DotDims S3x512 S3x8192 S512x8192 where
  lhsContracting := [0]
  rhsContracting := [0]
  lhsNonContracting := [1]
  rhsNonContracting := [1]
  lhsBatch := []
  rhsBatch := []
  wf := dot_S3x512_S3x8192_S512x8192_0_0_1_1_n_n_wf

abbrev win0_0 : Pipeline.Window sig grid0 :=
  Pipeline.Window.ofSpec (Memref.whole main_arg0) S1x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x3x8192 : Shape := ⟨3, ![4, 3, 8192]⟩
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 37
  | .vmem => 0
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x8192x3, .f32⟩
  | .hbm, ⟨3, _⟩ => ⟨S4x8192x3, .f32⟩
  | .hbm, ⟨4, _⟩ => ⟨S4x8192x3, .f32⟩
  | .hbm, ⟨5, _⟩ => ⟨S_, .f32⟩
  | .hbm, ⟨6, _⟩ => ⟨S4x8192, .f32⟩
  | .hbm, ⟨7, _⟩ => ⟨S4x8192x3, .f32⟩
  | .hbm, ⟨8, _⟩ => ⟨S_, .f32⟩
  | .hbm, ⟨9, _⟩ => ⟨S4x8192, .f32⟩
  | .hbm, ⟨10, _⟩ => ⟨S4x8192x8192, .f32⟩
  | .hbm, ⟨11, _⟩ => ⟨S4x8192x1, .f32⟩
  | .hbm, ⟨12, _⟩ => ⟨S4x1x8192, .f32⟩
  | .hbm, ⟨13, _⟩ => ⟨S4x8192x8192, .f32⟩
  | .hbm, ⟨14, _⟩ => ⟨S4x8192x8192, .f32⟩
  | .hbm, ⟨15, _⟩ => ⟨S4x8192x8192, .f32⟩
  | .hbm, ⟨16, _⟩ => ⟨S_, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S4x8192x8192, .f32⟩
  | .hbm, ⟨23, _⟩ => ⟨S4x8192x8192, .f32⟩
  | .hbm, ⟨24, _⟩ => ⟨S_, .f32⟩
  | .hbm, ⟨25, _⟩ => ⟨S4x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  transposes_S4x3x8192_S4x8192x3_0_2_1 : S4x3x8192.Transposes [0, 2, 1] S4x8192x3
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S_d0_1 : S4x8192.ReducesTo [0, 1] S_
  reducesTo_S4x8192x8192_S4x8192_d1 : S4x8192x8192.ReducesTo [1] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Pieces.lean ====
/-
  What each control case of the kernel's body leaves behind, as values.

  The body has three cases: the first tile of a batch (the two running values are reset, then updated), a middle tile
  (updated only), and the last tile (updated, then the two results are written). In every case the running minimum over
  the columns ends at the elementwise minimum of its previous contents and the tile's column minima, and the running sum
  ends at its previous contents plus the tile's row term; at the first tile the previous contents are the stored
  infinities and the stored zero; at the last tile the first result is the running sum and the second is the sum, over the
  columns, of the clamped square roots of the running minimum. Stated for any float instance: only the order of loads and
  stores matters here, not the arithmetic.
-/
import proofs.«140482_j19181323944568_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a batch: the running minimum is the minimum of the stored infinities and the tile's column minima. -/
theorem first_min (c : Dev nD) (i : grid0.Coords) (arg2 : Memref sig .tc .vmem S1x3x512 .f32) (harg2 : arg2.IsWhole) (arg3 : Memref sig .tc .vmem S1x3x8192 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x8192 .f32) (harg6 : arg6.IsWhole) (arg7 : Memref sig .tc .vmem S1x1 .f32) (harg7 : arg7.IsWhole) (hc0 : cond0_0 i) (hc1 : ¬cond0_1 i)
    (x0 : Vec F S1x3x512 .f32) (x1 : Vec F S1x3x8192 .f32)  :
    sout0_A_0 c i arg2 harg2 arg3 harg3 arg4 harg4 arg5 harg5 arg6 harg6 arg7 harg7 hc0 hc1 x0 x1  = k0_pay1 (k0_pay7 x0 x1) (k0_pay4 (F := F)) := by
  unfold sout0_A_0
  rw [View.read_writes_eq_canon _ _ _ (scover0_A_0 c i arg2 harg2 arg3 harg3 arg4 harg4 arg5 harg5 arg6 harg6 arg7 harg7 hc0 hc1 x0 x1 )]
  unfold kernelRun0_A
  dsimp only
  sl_unfold_words
  rw [View.canon_cons_unit_zero (S := S1x8192) hz2, View.readCov_unit_zero (S := S1x8192) _ hz2]
  simp only [View.readAt_eq_ld, harg2.read_unread, harg3.read_unread, harg6.read_unread, harg7.read_unread,
    View.ld_unit_zero (S := S1x3x512) hz3, View.ld_unit_zero (S := S1x3x8192) hz3, View.ld_unit_zero (S := S1x8192) hz2,
    View.ld_unit_zero (S := S1x1) hz2]

/-- First tile of a batch: the running sum is the stored zero plus the tile's row term. -/
theorem first_sum (c : Dev nD) (i : grid0.Coords) (arg2 : Memref sig .tc .vmem S1x3x512 .f32) (harg2 : arg2.IsWhole) (arg3 : Memref sig .tc .vmem S1x3x8192 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x8192 .f32) (harg6 : arg6.IsWhole) (arg7 : Memref sig .tc .vmem S1x1 .f32) (harg7 : arg7.IsWhole) (hc0 : cond0_0 i) (hc1 : ¬cond0_1 i)
    (x0 : Vec F S1x3x512 .f32) (x1 : Vec F S1x3x8192 .f32)  :
    sout0_A_1 c i arg2 harg2 arg3 harg3 arg4 harg4 arg5 harg5 arg6 harg6 arg7 harg7 hc0 hc1 x0 x1  = k0_pay8 x0 x1 (k0_pay5 (F := F)) := by
  unfold sout0_A_1
  rw [View.read_writes_eq_canon _ _ _ (scover0_A_1 c i arg2 harg2 arg3 harg3 arg4 harg4 arg5 harg5 arg6 harg6 arg7 harg7 hc0 hc1 x0 x1 )]
  unfold kernelRun0_A
  dsimp only
  sl_unfold_words
  rw [View.canon_cons_unit_zero (S := S1x1) hz2, View.readCov_unit_zero (S := S1x1) _ hz2]
  simp only [View.readAt_eq_ld, harg2.read_unread, harg3.read_unread, harg6.read_unread, harg7.read_unread,
    View.ld_unit_zero (S := S1x3x512) hz3, View.ld_unit_zero (S := S1x3x8192) hz3, View.ld_unit_zero (S := S1x8192) hz2,
    View.ld_unit_zero (S := S1x1) hz2]

/-- A middle tile: the running minimum is the minimum of its previous contents and the tile's column minima. -/
theorem middle_min (c : Dev nD) (i : grid0.Coords) (arg2 : Memref sig .tc .vmem S1x3x512 .f32) (harg2 : arg2.IsWhole) (arg3 : Memref sig .tc .vmem S1x3x8192 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x8192 .f32) (harg6 : arg6.IsWhole) (arg7 : Memref sig .tc .vmem S1x1 .f32) (harg7 : arg7.IsWhole) (hc0 : ¬cond0_0 i) (hc1 : ¬cond0_1 i)
    (x0 : Vec F S1x3x512 .f32) (x1 : Vec F S1x3x8192 .f32) (xs0 : Vec F S1x8192 .f32) (xs1 : Vec F S1x1 .f32) :
    sout0_B_0 c i arg2 harg2 arg3 harg3 arg4 harg4 arg5 harg5 arg6 harg6 arg7 harg7 hc0 hc1 x0 x1 xs0 xs1 = k0_pay1 (k0_pay7 x0 x1) xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread,
    View.ld_unit_zero (S := S1x3x512) hz3, View.ld_unit_zero (S := S1x3x8192) hz3, View.ld_unit_zero (S := S1x8192) hz2,
    View.ld_unit_zero (S := S1x1) hz2]

/-- A middle tile: the running sum is its previous contents plus the tile's row term. -/
theorem middle_sum (c : Dev nD) (i : grid0.Coords) (arg2 : Memref sig .tc .vmem S1x3x512 .f32) (harg2 : arg2.IsWhole) (arg3 : Memref sig .tc .vmem S1x3x8192 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x8192 .f32) (harg6 : arg6.IsWhole) (arg7 : Memref sig .tc .vmem S1x1 .f32) (harg7 : arg7.IsWhole) (hc0 : ¬cond0_0 i) (hc1 : ¬cond0_1 i)
    (x0 : Vec F S1x3x512 .f32) (x1 : Vec F S1x3x8192 .f32) (xs0 : Vec F S1x8192 .f32) (xs1 : Vec F S1x1 .f32) :
    sout0_B_1 c i arg2 harg2 arg3 harg3 arg4 harg4 arg5 harg5 arg6 harg6 arg7 harg7 hc0 hc1 x0 x1 xs0 xs1 = k0_pay8 x0 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread,
    View.ld_unit_zero (S := S1x3x512) hz3, View.ld_unit_zero (S := S1x3x8192) hz3, View.ld_unit_zero (S := S1x8192) hz2,
    View.ld_unit_zero (S := S1x1) hz2]

/-- The last tile: the running minimum, updated as at a middle tile. -/
theorem last_min (c : Dev nD) (i : grid0.Coords) (arg2 : Memref sig .tc .vmem S1x3x512 .f32) (harg2 : arg2.IsWhole) (arg3 : Memref sig .tc .vmem S1x3x8192 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x8192 .f32) (harg6 : arg6.IsWhole) (arg7 : Memref sig .tc .vmem S1x1 .f32) (harg7 : arg7.IsWhole) (hc0 : ¬cond0_0 i) (hc1 : cond0_1 i)
    (x0 : Vec F S1x3x512 .f32) (x1 : Vec F S1x3x8192 .f32) (xs0 : Vec F S1x8192 .f32) (xs1 : Vec F S1x1 .f32) :
    sout0_C_0 c i arg2 harg2 arg3 harg3 arg4 harg4 arg5 harg5 arg6 harg6 arg7 harg7 hc0 hc1 x0 x1 xs0 xs1 = k0_pay1 (k0_pay7 x0 x1) xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread,
    View.ld_unit_zero (S := S1x3x512) hz3, View.ld_unit_zero (S := S1x3x8192) hz3, View.ld_unit_zero (S := S1x8192) hz2,
    View.ld_unit_zero (S := S1x1) hz2]

/-- The last tile: the running sum, updated as at a middle tile. -/
theorem last_sum (c : Dev nD) (i : grid0.Coords) (arg2 : Memref sig .tc .vmem S1x3x512 .f32) (harg2 : arg2.IsWhole) (arg3 : Memref sig .tc .vmem S1x3x8192 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x8192 .f32) (harg6 : arg6.IsWhole) (arg7 : Memref sig .tc .vmem S1x1 .f32) (harg7 : arg7.IsWhole) (hc0 : ¬cond0_0 i) (hc1 : cond0_1 i)
    (x0 : Vec F S1x3x512 .f32) (x1 : Vec F S1x3x8192 .f32) (xs0 : Vec F S1x8192 .f32) (xs1 : Vec F S1x1 .f32) :
    sout0_C_1 c i arg2 harg2 arg3 harg3 arg4 harg4 arg5 harg5 arg6 harg6 arg7 harg7 hc0 hc1 x0 x1 xs0 xs1 = k0_pay8 x0 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread,
    View.ld_unit_zero (S := S1x3x512) hz3, View.ld_unit_zero (S := S1x3x8192) hz3, View.ld_unit_zero (S := S1x8192) hz2,
    View.ld_unit_zero (S := S1x1) hz2]

/-- The last tile: the first result is the updated running sum, as a one-entry block. -/
theorem last_row_result (c : Dev nD) (i : grid0.Coords) (arg2 : Memref sig .tc .vmem S1x3x512 .f32) (harg2 : arg2.IsWhole) (arg3 : Memref sig .tc .vmem S1x3x8192 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x8192 .f32) (harg6 : arg6.IsWhole) (arg7 : Memref sig .tc .vmem S1x1 .f32) (harg7 : arg7.IsWhole) (hc0 : ¬cond0_0 i) (hc1 : cond0_1 i)
    (x0 : Vec F S1x3x512 .f32) (x1 : Vec F S1x3x8192 .f32) (xs0 : Vec F S1x8192 .f32) (xs1 : Vec F S1x1 .f32) :
    out0_C_2 c i arg2 harg2 arg3 harg3 arg4 harg4 arg5 harg5 arg6 harg6 arg7 harg7 hc0 hc1 x0 x1 xs0 xs1 = k0_pay3 (k0_pay8 x0 x1 xs1) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3, View.readCov_unit_zero (S := S1x1) _ hz2]
  simp only [View.readAt_eq_ld, harg2.read_unread, harg3.read_unread, harg6.read_unread, harg7.read_unread,
    View.ld_unit_zero (S := S1x3x512) hz3, View.ld_unit_zero (S := S1x3x8192) hz3, View.ld_unit_zero (S := S1x8192) hz2,
    View.ld_unit_zero (S := S1x1) hz2]

/-- The last tile: the second result is the sum over the columns of the clamped square roots of the updated running minimum. -/
theorem last_col_result (c : Dev nD) (i : grid0.Coords) (arg2 : Memref sig .tc .vmem S1x3x512 .f32) (harg2 : arg2.IsWhole) (arg3 : Memref sig .tc .vmem S1x3x8192 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x8192 .f32) (harg6 : arg6.IsWhole) (arg7 : Memref sig .tc .vmem S1x1 .f32) (harg7 : arg7.IsWhole) (hc0 : ¬cond0_0 i) (hc1 : cond0_1 i)
    (x0 : Vec F S1x3x512 .f32) (x1 : Vec F S1x3x8192 .f32) (xs0 : Vec F S1x8192 .f32) (xs1 : Vec F S1x1 .f32) :
    out0_C_3 c i arg2 harg2 arg3 harg3 arg4 harg4 arg5 harg5 arg6 harg6 arg7 harg7 hc0 hc1 x0 x1 xs0 xs1 = k0_pay2 (k0_pay1 (k0_pay7 x0 x1) xs0) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3, View.readCov_unit_zero (S := S1x8192) _ hz2]
  simp only [View.readAt_eq_ld, harg2.read_unread, harg3.read_unread, harg6.read_unread, harg7.read_unread,
    View.ld_unit_zero (S := S1x3x512) hz3, View.ld_unit_zero (S := S1x3x8192) hz3, View.ld_unit_zero (S := S1x8192) hz2,
    View.ld_unit_zero (S := S1x1) hz2]

end Cert.KernelIdeal.Pieces

end
-- ==== Proof.LibRangeBlocks.lean ====
/-
  Finite infima and sums over an initial segment of the naturals cut into consecutive blocks.

  An infimum (in a semilattice with a top element) or a sum (in a commutative monoid) over `Finset.range (b * k)` is the
  infimum, or the sum, over the `k` blocks of `b` consecutive indices `b * j + n`; an infimum or a sum indexed by
  `Fin n` of a function of the index's value is the one over `Finset.range n`; a left fold of `min` from the top element
  on the extended reals is the `Finset.inf`; and a monotone map of the extended reals that fixes the top element passes
  through such an infimum.
-/
import Mathlib

namespace Cert.LibRangeBlocks

open Finset

variable {α : Type*}

/-- The infimum over the first `a + b` naturals is the infimum over the first `a` met with the infimum over the next `b`. -/
theorem inf_range_add [SemilatticeInf α] [OrderTop α] (f : ℕ → α) (a b : ℕ) :
    (range (a + b)).inf f = (range a).inf f ⊓ (range b).inf fun n => f (a + n) := by
  rw [Finset.range_add, Finset.inf_union, Finset.inf_map]
  rfl

/-- The infimum over the first `b * k` naturals is the infimum over the `k` blocks of `b` consecutive ones. -/
theorem inf_range_mul [SemilatticeInf α] [OrderTop α] (f : ℕ → α) (b : ℕ) : ∀ k : ℕ,
    (range (b * k)).inf f = (range k).inf fun j => (range b).inf fun n => f (b * j + n)
  | 0 => by simp
  | k + 1 => by
    rw [Nat.mul_succ, inf_range_add, inf_range_mul f b k, Finset.range_add_one, Finset.inf_insert, inf_comm]

/-- The sum over the first `b * k` naturals is the sum over the `k` blocks of `b` consecutive ones. -/
theorem sum_range_mul [AddCommMonoid α] (f : ℕ → α) (b : ℕ) : ∀ k : ℕ,
    ∑ x ∈ range (b * k), f x = ∑ j ∈ range k, ∑ n ∈ range b, f (b * j + n)
  | 0 => by simp
  | k + 1 => by
    rw [Nat.mul_succ, Finset.sum_range_add, sum_range_mul f b k, Finset.sum_range_succ]

/-- An infimum indexed by `Fin n` of a function of the index's value is the infimum over the first `n` naturals. -/
theorem inf_univ_fin [SemilatticeInf α] [OrderTop α] (f : ℕ → α) (n : ℕ) :
    (Finset.univ : Finset (Fin n)).inf (fun i => f i.val) = (range n).inf f := by
  refine le_antisymm (Finset.le_inf fun k hk => ?_) (Finset.le_inf fun i _ => ?_)
  · exact Finset.inf_le (f := fun i : Fin n => f i.val) (Finset.mem_univ ⟨k, Finset.mem_range.mp hk⟩)
  · exact Finset.inf_le (Finset.mem_range.mpr i.isLt)

/-- On the extended reals the fold of `min` from the top element over a finite set is the set's infimum. -/
theorem fold_min_top {ι : Type*} [DecidableEq ι] [Std.Commutative (min : EReal → EReal → EReal)]
    [Std.Associative (min : EReal → EReal → EReal)] (s : Finset ι) (f : ι → EReal) :
    s.fold min ⊤ f = s.inf f := by
  induction s using Finset.induction_on with
  | empty => simp
  | insert a s ha ih => rw [Finset.fold_insert ha, Finset.inf_insert, ih]

/-- A monotone map of the extended reals that fixes the top element passes through a finite infimum. -/
theorem map_inf_range (g : EReal → EReal) (hg : Monotone g) (htop : g ⊤ = ⊤) {ι : Type*} (s : Finset ι) (f : ι → EReal) :
    g (s.inf f) = s.inf fun i => g (f i) :=
  Finset.apply_inf_eq_inf_comp_of_linearOrder g hg htop

end Cert.LibRangeBlocks
-- ==== Proof.ClampRoot.lean ====
/-
  Three small facts both sides of the comparison use.

  * The clamped root `x ↦ √(max x 0)` on the extended reals is monotone, is `+∞` at `+∞` and is never negative (at `−∞`
    and at every negative number it is `0`; on a nonnegative real it is the real square root).
  * The float literal two denotes the real number two: nonnegative and finite.
  * An argument array of shape [4, 3, 8192] read at natural coordinates (zero outside the array), so that tiles and whole
    rows can be indexed by plain numbers.
  Also here: the float literal `+∞` is the top element, so a fold of the ideal minimum from it is an infimum; and the
  outer shape of the loss, which both programs share: each direction's total over the four batches, from zero, divided
  by the number of points, the two quotients added.
-/
import Idealize.ShloMosaic.PureOps.Ideal
import Idealize.ShloMosaic.PureOps.Ideal.Laws
import Idealize.ShloMosaic.Lib.ValueIdx
import proofs.«140482_j19181323944568_2_alg».proof.Proof.LibRangeBlocks

noncomputable section

open Idealize.ShloMosaic Idealize.ShloMosaic.ValueIdx

namespace Cert.Chamfer

/-- The clamped root: the square root of the positive part. -/
def root (x : EReal) : EReal := Ideal.sqrt (max x (Ideal.ofBits .f32 0x00000000#32))

theorem root_eq (x : EReal) : root x = Ideal.sqrt (max x 0) := by
  unfold root; rw [Ideal.ofBits_zero_f32]

theorem root_top : root ⊤ = ⊤ := by
  rw [root_eq, max_eq_left le_top, Ideal.sqrt_top]

theorem root_coe (r : ℝ) : root (r : EReal) = ((Real.sqrt (max r 0) : ℝ) : EReal) := by
  have e : max (r : EReal) 0 = ((max r 0 : ℝ) : EReal) := by
    rw [← EReal.coe_zero]; exact (EReal.coe_strictMono.monotone.map_max).symm
  rw [root_eq, e, Ideal.sqrt_coe, if_neg (not_lt.mpr (le_max_right r 0))]

theorem root_bot : root ⊥ = 0 := by
  rw [root_eq, max_eq_right bot_le, ← EReal.coe_zero, Ideal.sqrt_coe, if_neg (lt_irrefl 0), Real.sqrt_zero]

theorem root_nonneg (x : EReal) : 0 ≤ root x := by
  induction x using EReal.rec with
  | bot => rw [root_bot]
  | top => rw [root_top]; exact le_top
  | coe r => rw [root_coe]; exact EReal.coe_nonneg.mpr (Real.sqrt_nonneg _)

theorem root_mono : Monotone root := by
  intro x y h
  induction x using EReal.rec with
  | bot => rw [root_bot]; exact root_nonneg y
  | top => rw [top_le_iff.mp h]
  | coe r =>
    induction y using EReal.rec with
    | bot => exact absurd h (not_le.mpr (EReal.bot_lt_coe r))
    | top => rw [root_top]; exact le_top
    | coe s =>
      rw [root_coe, root_coe]
      exact EReal.coe_le_coe_iff.mpr (Real.sqrt_le_sqrt (max_le_max (EReal.coe_le_coe_iff.mp h) le_rfl))

/-- The float literal two. -/
abbrev two : EReal := Ideal.ofBits .f32 0x40000000#32

theorem two_eq : two = ((2 : ℝ) : EReal) := by
  unfold two
  simp [Ideal.ofBits, Ideal.ieee, -EReal.coe_mul]
  norm_num

theorem two_nonneg : 0 ≤ two := by rw [two_eq]; exact EReal.coe_nonneg.mpr (by norm_num)
theorem two_ne_top : two ≠ ⊤ := by rw [two_eq]; exact EReal.coe_ne_top _

/-- An argument array read at natural coordinates: batch, coordinate, point; zero outside the array. -/
def nat3 (X : (⟨3, ![4, 3, 8192]⟩ : Shape).Idx → EReal) (b c n : ℕ) : EReal :=
  if h : b < 4 ∧ c < 3 ∧ n < 8192 then X (ix3 ⟨b, h.1⟩ ⟨c, h.2.1⟩ ⟨n, h.2.2⟩) else 0

theorem nat3_apply (X : (⟨3, ![4, 3, 8192]⟩ : Shape).Idx → EReal) (b : Fin 4) (c : Fin 3) (n : Fin 8192) :
    nat3 X b.val c.val n.val = X (ix3 b c n) := by
  unfold nat3
  rw [dif_pos ⟨b.isLt, c.isLt, n.isLt⟩]

/-! ## The `+∞` literal and the minimum's fold -/

theorem ofBits_inf : Ideal.ofBits .f32 0x7F800000#32 = (⊤ : EReal) := by simp [Ideal.ofBits, Ideal.ieee]

/-- The fold of the ideal minimum from `+∞` is the infimum. -/
theorem fold_minimumf {ι : Type} [DecidableEq ι] (s : Finset ι) (f : ι → EReal) :
    s.fold (FloatOps.minimumf (F := Ideal) (φ := .f32)) (FloatOps.ofBits (F := Ideal) .f32 0x7F800000#32) f = s.inf f := by
  show s.fold min (Ideal.ofBits .f32 0x7F800000#32) f = _
  rw [ofBits_inf]
  exact Cert.LibRangeBlocks.fold_min_top s f

/-! ## The outer shape of the loss -/

/-- From each direction's per-batch totals `R`, `C`: each summed over the four batches from zero and divided by the
    number of points (the literal 32768), the two quotients added. -/
def loss (R C : ℕ → EReal) : EReal :=
  Ideal.div (Ideal.ofBits .f32 0x00000000#32 + ∑ b ∈ Finset.range 4, R b) (Ideal.ofBits .f32 0x47000000#32)
    + Ideal.div (Ideal.ofBits .f32 0x00000000#32 + ∑ b ∈ Finset.range 4, C b) (Ideal.ofBits .f32 0x47000000#32)

end Cert.Chamfer

end
-- ==== Proof.Payloads.lean ====
/-
  The body's arithmetic read entry by entry, on the extended reals.

  A tile holds 512 points of the first cloud (a [1,3,512] block) and all 8192 points of the second (a [1,3,8192] block).
  * the tile of squared distances at (p, q) is |a_p|² + |b_q|² minus the inner product whose first factors are doubled;
  * the tile's column minimum at q is the minimum of that column, its row term the sum over the rows of the clamped root
    of the row's minimum, added to the previous running sum;
  * the running minimum is updated by an elementwise minimum; the second result is the sum over the columns of the clamped
    root of the running minimum; the first result is the running sum itself.
  Layout operations (a vector made a row or a column, a transpose, a row or a column repeated) only move entries, and a
  reduction along one axis with the neutral initial value is the sum, or the minimum, along it.
-/
import proofs.«140482_j19181323944568_2_alg».proof.Proof.Gen.KernelIdeal.Skeleton
import proofs.«140482_j19181323944568_2_alg».proof.Proof.LibRangeBlocks
import proofs.«140482_j19181323944568_2_alg».proof.Proof.ClampRoot
import Idealize.ShloMosaic.Lib.ValueIdx
import Idealize.ShloMosaic.Lib.ValueLayout
import Idealize.ShloMosaic.Lib.Pipeline.Value
import Idealize.ShloMosaic.PureOps.Ideal.Laws

set_option maxRecDepth 65536

noncomputable section

open Idealize.ShloMosaic Idealize.ShloMosaic.ValueIdx

namespace Cert.KernelIdeal.Payloads

open Cert.KernelIdeal Cert.KernelIdeal.Gen Cert.Chamfer

/-! ## Layouts: a column made from a vector, a column repeated -/

/-- A length-`a` vector cast to an `[a, 1]` column reads, at `(i, u)`, the vector's entry `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## Reductions along one axis of a matrix, from the neutral initial value -/

/-- The sum down column `q`. -/
theorem colsum_apply {a b : ℕ} (v : FVec Ideal ⟨2, ![a, b]⟩ .f32) (h : (⟨2, ![a, b]⟩ : Shape).Reduces [0] ⟨1, ![b]⟩) (q : Fin b) :
    multiReduction .add [0] ⟨1, ![b]⟩ v 0x00000000#32 h (.inl rfl) rfl (ix1 q) = ∑ k : Fin a, v (ix2 k q) := by
  refine (Ideal.multiReduction_add_single v 0x00000000#32 h (.inl rfl) rfl (ix1 q)).trans ?_
  refine Finset.sum_congr rfl fun k _ => congrArg v (funext fun d => Fin.ext ?_)
  match d with
  | ⟨0, _⟩ => rfl
  | ⟨1, _⟩ => rfl

/-- The sum along row `p`. -/
theorem rowsum_apply {a b : ℕ} (v : FVec Ideal ⟨2, ![a, b]⟩ .f32) (h : (⟨2, ![a, b]⟩ : Shape).Reduces [1] ⟨1, ![a]⟩) (p : Fin a) :
    multiReduction .add [1] ⟨1, ![a]⟩ v 0x00000000#32 h (.inl rfl) rfl (ix1 p) = ∑ k : Fin b, v (ix2 p k) := by
  refine (Ideal.multiReduction_add_single v 0x00000000#32 h (.inl rfl) rfl (ix1 p)).trans ?_
  refine Finset.sum_congr rfl fun k _ => congrArg v (funext fun d => Fin.ext ?_)
  match d with
  | ⟨0, _⟩ => rfl
  | ⟨1, _⟩ => rfl

/-- The minimum down column `q`. -/
theorem colmin_apply {a b : ℕ} (v : FVec Ideal ⟨2, ![a, b]⟩ .f32) (h : (⟨2, ![a, b]⟩ : Shape).Reduces [0] ⟨1, ![b]⟩) (q : Fin b) :
    multiReduction .minimumf [0] ⟨1, ![b]⟩ v 0x7F800000#32 h (.inl rfl) rfl (ix1 q) = Finset.univ.inf fun k : Fin a => v (ix2 k q) := by
  refine (multiReduction_minimumf_eq_fold v 0x7F800000#32 h (.inl rfl) rfl (ix1 q)).trans ?_
  refine (h.fold_filter_drop_single _ _ v (ix1 q)).trans ?_
  refine (fold_minimumf _ _).trans ?_
  refine Finset.inf_congr rfl fun k _ => congrArg v (funext fun d => Fin.ext ?_)
  match d with
  | ⟨0, _⟩ => rfl
  | ⟨1, _⟩ => rfl

/-- The minimum along row `p`. -/
theorem rowmin_apply {a b : ℕ} (v : FVec Ideal ⟨2, ![a, b]⟩ .f32) (h : (⟨2, ![a, b]⟩ : Shape).Reduces [1] ⟨1, ![a]⟩) (p : Fin a) :
    multiReduction .minimumf [1] ⟨1, ![a]⟩ v 0x7F800000#32 h (.inl rfl) rfl (ix1 p) = Finset.univ.inf fun k : Fin b => v (ix2 p k) := by
  refine (multiReduction_minimumf_eq_fold v 0x7F800000#32 h (.inl rfl) rfl (ix1 p)).trans ?_
  refine (h.fold_filter_drop_single _ _ v (ix1 p)).trans ?_
  refine (fold_minimumf _ _).trans ?_
  refine Finset.inf_congr rfl fun k _ => congrArg v (funext fun d => Fin.ext ?_)
  match d with
  | ⟨0, _⟩ => rfl
  | ⟨1, _⟩ => rfl

/-! ## The contraction over the three coordinates -/

theorem lhs_idx_0 (i : S512x8192.Idx) (k : dot_S3x512_S3x8192_S512x8192_0_0_1_1_n_n.contr.Idx) : (dot_S3x512_S3x8192_S512x8192_0_0_1_1_n_n.lhsIdx i k 0).val = (k ⟨0, by decide⟩).val :=
  dot_S3x512_S3x8192_S512x8192_0_0_1_1_n_n.lhsIdx_val_of_single rfl i k
theorem lhs_idx_1 (i : S512x8192.Idx) (k : dot_S3x512_S3x8192_S512x8192_0_0_1_1_n_n.contr.Idx) : (dot_S3x512_S3x8192_S512x8192_0_0_1_1_n_n.lhsIdx i k 1).val = (i 0).val := by
  unfold DotDims.lhsIdx
  rw [dif_neg (show ¬(1 : Fin S3x512.rank) ∈ dot_S3x512_S3x8192_S512x8192_0_0_1_1_n_n.lhsBatch by decide), dif_pos (show (1 : Fin S3x512.rank) ∈ dot_S3x512_S3x8192_S512x8192_0_0_1_1_n_n.lhsNonContracting by decide)]
  rfl
theorem rhs_idx_0 (i : S512x8192.Idx) (k : dot_S3x512_S3x8192_S512x8192_0_0_1_1_n_n.contr.Idx) : (dot_S3x512_S3x8192_S512x8192_0_0_1_1_n_n.rhsIdx i k 0).val = (k ⟨0, by decide⟩).val :=
  dot_S3x512_S3x8192_S512x8192_0_0_1_1_n_n.rhsIdx_val_of_single rfl i k
theorem rhs_idx_1 (i : S512x8192.Idx) (k : dot_S3x512_S3x8192_S512x8192_0_0_1_1_n_n.contr.Idx) : (dot_S3x512_S3x8192_S512x8192_0_0_1_1_n_n.rhsIdx i k 1).val = (i 1).val := by
  unfold DotDims.rhsIdx
  rw [dif_neg (show ¬(1 : Fin S3x8192.rank) ∈ dot_S3x512_S3x8192_S512x8192_0_0_1_1_n_n.rhsBatch by decide), dif_pos (show (1 : Fin S3x8192.rank) ∈ dot_S3x512_S3x8192_S512x8192_0_0_1_1_n_n.rhsNonContracting by decide)]
  rfl

/-- The tile's matrix product into zero: at `(p, q)` the sum over the coordinate `k` of `u (k, p) · w (k, q)`. -/
theorem cross_apply (u : FVec Ideal S3x512 .f32) (w : FVec Ideal S3x8192 .f32) (p : Fin 512) (q : Fin 8192) :
    matmul dot_S3x512_S3x8192_S512x8192_0_0_1_1_n_n none u w (constant S512x8192 .f32 0x00000000#32) (ix2 p q)
      = ∑ k : Fin 3, u (ix2 k p) * w (ix2 k q) := by
  refine (Ideal.matmul_constant_zero_apply dot_S3x512_S3x8192_S512x8192_0_0_1_1_n_n none u w (ix2 p q)).trans ?_
  rw [← Equiv.sum_comp (ValueIdx.contrEquiv1 dot_S3x512_S3x8192_S512x8192_0_0_1_1_n_n 3 rfl rfl).symm]
  refine Finset.sum_congr rfl fun k _ => ?_
  have hk := ValueIdx.contrEquiv1_symm_val dot_S3x512_S3x8192_S512x8192_0_0_1_1_n_n 3 rfl rfl k
  have el : dot_S3x512_S3x8192_S512x8192_0_0_1_1_n_n.lhsIdx (ix2 p q) ((ValueIdx.contrEquiv1 dot_S3x512_S3x8192_S512x8192_0_0_1_1_n_n 3 rfl rfl).symm k) = ix2 k p :=
    funext fun a => Fin.ext (by
      match a with
      | ⟨0, _⟩ => exact (lhs_idx_0 _ _).trans hk
      | ⟨1, _⟩ => exact lhs_idx_1 _ _)
  have er : dot_S3x512_S3x8192_S512x8192_0_0_1_1_n_n.rhsIdx (ix2 p q) ((ValueIdx.contrEquiv1 dot_S3x512_S3x8192_S512x8192_0_0_1_1_n_n 3 rfl rfl).symm k) = ix2 k q :=
    funext fun a => Fin.ext (by
      match a with
      | ⟨0, _⟩ => exact (rhs_idx_0 _ _).trans hk
      | ⟨1, _⟩ => exact rhs_idx_1 _ _)
  rw [el, er]

/-! ## The payloads -/

/-- The square root of a vector, entry by entry. -/
theorem sqrt_apply {s : Shape} {φ : FTy} (a : FVec Ideal s φ) (i : s.Idx) : sqrt a i = Ideal.sqrt (a i) := rfl

theorem dist_core (v4 : FVec Ideal S3x512 .f32) (v6 : FVec Ideal S3x8192 .f32) (p : Fin 512) (q : Fin 8192) :
    subf (addf
        (broadcastTo S512x8192 (transpose S512x1 [1, 0] (shapeCast S1x512 (multiReduction .add [0] S512 (mulf v4 v4) 0x00000000#32 reduces_S3x512_S512 (.inl rfl) rfl)
          shapeCasts_S512_S1x512) transposes_S1x512_p1_0_S512x1) broadcasts_S512x1_S512x8192)
        (broadcastTo S512x8192 (shapeCast S1x8192 (multiReduction .add [0] S8192 (mulf v6 v6) 0x00000000#32 reduces_S3x8192_S8192 (.inl rfl) rfl)
          shapeCasts_S8192_S1x8192) broadcasts_S1x8192_S512x8192))
      (matmul dot_S3x512_S3x8192_S512x8192_0_0_1_1_n_n none (mulf (broadcast S3x512 (Scalar.ofBits (F := Ideal) .f32 0x40000000#32)) v4) v6 (constant S512x8192 .f32 0x00000000#32)) (ix2 p q)
      = ((∑ k : Fin 3, v4 (ix2 k p) * v4 (ix2 k p)) + ∑ k : Fin 3, v6 (ix2 k q) * v6 (ix2 k q))
        - ∑ k : Fin 3, (Ideal.ofBits .f32 0x40000000#32 * v4 (ix2 k p)) * v6 (ix2 k q) := by
  rw [subf_apply, addf_apply, broadcastTo_a1_ab_apply, transpose_ix2_apply, shapeCast_a_1a_apply, colsum_apply,
    broadcastTo_1b_ab_apply, shapeCast_a_1a_apply, colsum_apply, cross_apply]
  rfl

/-- The tile of squared distances at `(p, q)`. -/
theorem tile_dist (x0 : FVec Ideal S1x3x512 .f32) (x1 : FVec Ideal S1x3x8192 .f32) (p : Fin 512) (q : Fin 8192) :
    k0_pay6 (F := Ideal) x0 x1 (ix2 p q)
      = ((∑ k : Fin 3, x0 (ix3 0 k p) * x0 (ix3 0 k p)) + ∑ k : Fin 3, x1 (ix3 0 k q) * x1 (ix3 0 k q))
        - ∑ k : Fin 3, (Ideal.ofBits .f32 0x40000000#32 * x0 (ix3 0 k p)) * x1 (ix3 0 k q) := by
  unfold k0_pay6
  refine (dist_core (shapeCast S3x512 x0 shapeCasts_S1x3x512_S3x512) (shapeCast S3x8192 x1 shapeCasts_S1x3x8192_S3x8192) p q).trans ?_
  simp only [shapeCast_1ab_ab_apply]

theorem colmin_core (d : FVec Ideal S512x8192 .f32) (q : Fin 8192) :
    shapeCast S1x8192 (multiReduction .minimumf [0] S8192 d 0x7F800000#32 reduces_S512x8192_S8192 (.inl rfl) rfl) shapeCasts_S8192_S1x8192 (ix2 (0 : Fin 1) q)
      = Finset.univ.inf fun p : Fin 512 => d (ix2 p q) := by
  rw [shapeCast_a_1a_apply, colmin_apply]

/-- The tile's column minimum at `q`. -/
theorem tile_colmin (x0 : FVec Ideal S1x3x512 .f32) (x1 : FVec Ideal S1x3x8192 .f32) (q : Fin 8192) :
    k0_pay7 (F := Ideal) x0 x1 (ix2 (0 : Fin 1) q) = Finset.univ.inf fun p : Fin 512 => k0_pay6 (F := Ideal) x0 x1 (ix2 p q) := by
  unfold k0_pay7
  exact colmin_core (k0_pay6 (F := Ideal) x0 x1) q

theorem rowsum_core (d : FVec Ideal S512x8192 .f32) (v28 : FVec Ideal S1x1 .f32) :
    shapeCast S1x1 (addf v28 (shapeCast S1x1 (multiReduction .add [0] S1
        (sqrt (maximumf (shapeCast S512x1 (multiReduction .minimumf [1] S512 d 0x7F800000#32 reduces_S512x8192_S512 (.inl rfl) rfl) shapeCasts_S512_S512x1)
          (broadcast S512x1 (Scalar.ofBits (F := Ideal) .f32 0x00000000#32)))) 0x00000000#32 reduces_S512x1_S1 (.inl rfl) rfl) shapeCasts_S1_S1x1))
      shapeCasts_S1x1_S1x1 (ix2 (0 : Fin 1) (0 : Fin 1))
      = v28 (ix2 (0 : Fin 1) (0 : Fin 1)) + ∑ p : Fin 512, root (Finset.univ.inf fun q : Fin 8192 => d (ix2 p q)) := by
  rw [shapeCast_self, addf_apply, shapeCast_a_1a_apply, colsum_apply]
  refine congrArg (v28 (ix2 (0 : Fin 1) (0 : Fin 1)) + ·) (Finset.sum_congr rfl fun p _ => ?_)
  rw [sqrt_apply, maximumf_apply, shapeCast_a_a1_apply, rowmin_apply, broadcast_apply]
  rfl

/-- The running sum after the tile: the previous one plus the sum over the rows of the clamped root of the row's minimum. -/
theorem tile_rowsum (x0 : FVec Ideal S1x3x512 .f32) (x1 : FVec Ideal S1x3x8192 .f32) (v28 : FVec Ideal S1x1 .f32) :
    k0_pay8 (F := Ideal) x0 x1 v28 (ix2 (0 : Fin 1) (0 : Fin 1))
      = v28 (ix2 (0 : Fin 1) (0 : Fin 1)) + ∑ p : Fin 512, root (Finset.univ.inf fun q : Fin 8192 => k0_pay6 (F := Ideal) x0 x1 (ix2 p q)) := by
  unfold k0_pay8
  exact rowsum_core (k0_pay6 (F := Ideal) x0 x1) v28

/-- The running minimum after the tile: the elementwise minimum of the previous one and the tile's column minima. -/
theorem upd_min (v24 v35 : FVec Ideal S1x8192 .f32) (i : S1x8192.Idx) :
    k0_pay1 (F := Ideal) v24 v35 i = min (v35 i) (v24 i) := by
  unfold k0_pay1
  show shapeCast S1x8192 (minimumf v35 v24) shapeCasts_S1x8192_S1x8192 i = _
  rw [shapeCast_self]
  rfl

theorem colres_core (v : FVec Ideal S1x8192 .f32) :
    shapeCast S1x1x1 (shapeCast S1x1 (multiReduction .add [1] S1
      (sqrt (maximumf v (broadcast S1x8192 (Scalar.ofBits (F := Ideal) .f32 0x00000000#32)))) 0x00000000#32 reduces_S1x8192_S1 (.inl rfl) rfl) shapeCasts_S1_S1x1)
      shapeCasts_S1x1_S1x1x1 (ix3 (0 : Fin 1) (0 : Fin 1) (0 : Fin 1)) = ∑ q : Fin 8192, root (v (ix2 (0 : Fin 1) q)) := by
  rw [shapeCast_ab_1ab_apply, shapeCast_a_1a_apply, rowsum_apply]
  rfl

/-- The second result: the sum over the columns of the clamped root of the running minimum. -/
theorem col_result (v43 : FVec Ideal S1x8192 .f32) :
    k0_pay2 (F := Ideal) v43 (ix3 (0 : Fin 1) (0 : Fin 1) (0 : Fin 1)) = ∑ q : Fin 8192, root (v43 (ix2 (0 : Fin 1) q)) := by
  unfold k0_pay2
  exact colres_core v43

/-- The first result: the running sum, as a one-entry block. -/
theorem row_result (v52 : FVec Ideal S1x1 .f32) :
    k0_pay3 (F := Ideal) v52 (ix3 (0 : Fin 1) (0 : Fin 1) (0 : Fin 1)) = v52 (ix2 (0 : Fin 1) (0 : Fin 1)) := by
  unfold k0_pay3
  show shapeCast S1x1x1 v52 shapeCasts_S1x1_S1x1x1 (ix3 (0 : Fin 1) (0 : Fin 1) (0 : Fin 1)) = _
  rw [shapeCast_ab_1ab_apply]

/-- The reset of the running minimum stores `+∞` everywhere. -/
theorem reset_min (i : S1x8192.Idx) : k0_pay4 (F := Ideal) i = (⊤ : EReal) := by
  unfold k0_pay4
  show shapeCast S1x8192 (broadcast S1x8192 (Scalar.ofBits (F := Ideal) .f32 0x7F800000#32)) shapeCasts_S1x8192_S1x8192 i = _
  rw [shapeCast_self]
  exact ofBits_inf

/-- The reset of the running sum stores zero. -/
theorem reset_sum (i : S1x1.Idx) : k0_pay5 (F := Ideal) i = (0 : EReal) := by
  unfold k0_pay5
  show shapeCast S1x1 (broadcast S1x1 (Scalar.ofBits (F := Ideal) .f32 0x00000000#32)) shapeCasts_S1x1_S1x1 i = _
  rw [shapeCast_self]
  exact Ideal.ofBits_zero_f32

end Cert.KernelIdeal.Payloads

end
-- ==== Proof.ChamferMath.lean ====
/-
  The mathematics of the symmetric nearest-neighbour distance between two point clouds, on the extended reals.

  For point clouds `A`, `B` (batch, coordinate, point; three coordinates, 8192 points) the squared distance is written
  `|a|² + |b|² − s · ⟨a, b⟩` with a scale `s` (the number two: any nonnegative finite scale will do). Two facts join a
  tiled evaluation to the plain one:
  * scaling the first factor of every product in the inner product is scaling the inner product (`dotScaled_eq`): a
    nonnegative finite scale distributes over every sum of extended reals, so no finiteness of the points is needed;
  * a monotone map that fixes `+∞` (the square root of the positive part) passes through a minimum, so applying it after
    the minimum over a row or a column is applying it to every entry first.
  The tiled evaluation walks the 8192 points of `A` in 16 tiles of 512: a running minimum per column started at `+∞`
  (`colAcc`) and a running sum of the tiles' row terms started at zero (`rowAcc`); after the last tile they are the
  column minima over all points and the sum of all row terms (`colAcc_last`, `rowAcc_last`).
-/
import Mathlib
import proofs.«140482_j19181323944568_2_alg».proof.Proof.LibRangeBlocks

noncomputable section

namespace Cert.ChamferMath

open Finset Cert.LibRangeBlocks

variable (g : EReal → EReal) (s : EReal) (A B : ℕ → ℕ → ℕ → EReal)

/-- The squared norm of point `n` of batch `b`. -/
def sq (A : ℕ → ℕ → ℕ → EReal) (b n : ℕ) : EReal := ∑ c ∈ range 3, A b c n * A b c n

/-- The inner product of two points, each product's first factor scaled. -/
def dotScaled (b n m : ℕ) : EReal := ∑ c ∈ range 3, (s * A b c n) * B b c m

/-- The squared distance between point `n` of `A` and point `m` of `B`, as the plain evaluation writes it. -/
def dist2 (b n m : ℕ) : EReal := (sq A b n + sq B b m) - s * ∑ c ∈ range 3, A b c n * B b c m

/-- Scaling every first factor scales the inner product: a nonnegative finite scale distributes over sums. -/
theorem dotScaled_eq (h0 : 0 ≤ s) (ht : s ≠ ⊤) (b n m : ℕ) :
    dotScaled s A B b n m = s * ∑ c ∈ range 3, A b c n * B b c m := by
  unfold dotScaled
  simp only [Finset.sum_range_succ, Finset.sum_range_zero, zero_add, mul_assoc]
  rw [EReal.left_distrib_of_nonneg_of_ne_top h0 ht, EReal.left_distrib_of_nonneg_of_ne_top h0 ht]

/-- So the squared distance written with the scaled inner product is the same number. -/
theorem dist2_scaled (h0 : 0 ≤ s) (ht : s ≠ ⊤) (b n m : ℕ) :
    (sq A b n + sq B b m) - dotScaled s A B b n m = dist2 s A B b n m := by
  rw [dotScaled_eq s A B h0 ht]; rfl

/-! ## The rows: a running sum over the tiles -/

/-- The smallest squared distance from point `n` of `A` to the points of `B`. -/
def rowMin (b n : ℕ) : EReal := (range 8192).inf fun m => dist2 s A B b n m

/-- One tile's row term: the sum over its 512 points of the map of their smallest squared distance. -/
def rowTile (b j : ℕ) : EReal := ∑ n ∈ range 512, g (rowMin s A B b (512 * j + n))

/-- The running sum after tile `j`: zero plus the first tile's term, then one more term per tile. -/
def rowAcc (b : ℕ) : ℕ → EReal
  | 0 => 0 + rowTile g s A B b 0
  | j + 1 => rowAcc b j + rowTile g s A B b (j + 1)

theorem rowAcc_eq_sum (b : ℕ) : ∀ j : ℕ, rowAcc g s A B b j = ∑ j' ∈ range (j + 1), rowTile g s A B b j'
  | 0 => by simp [rowAcc]
  | j + 1 => by rw [rowAcc, rowAcc_eq_sum b j, Finset.sum_range_succ _ (j + 1)]

/-- After the sixteenth tile the running sum is the sum over all 8192 points. -/
theorem rowAcc_last (b : ℕ) : rowAcc g s A B b 15 = ∑ n ∈ range 8192, g (rowMin s A B b n) := by
  rw [rowAcc_eq_sum]
  exact (sum_range_mul (fun n => g (rowMin s A B b n)) 512 16).symm

/-- With the map passed through the minimum: the sum over the points of `A` of the smallest mapped distance. -/
theorem row_side (hg : Monotone g) (htop : g ⊤ = ⊤) (b : ℕ) :
    rowAcc g s A B b 15 = ∑ n ∈ range 8192, (range 8192).inf fun m => g (dist2 s A B b n m) := by
  rw [rowAcc_last]
  exact Finset.sum_congr rfl fun n _ => map_inf_range g hg htop _ _

/-! ## The columns: a running minimum over the tiles -/

/-- One tile's column minimum: the smallest squared distance from the tile's 512 points to point `m` of `B`. -/
def colTile (b j m : ℕ) : EReal := (range 512).inf fun n => dist2 s A B b (512 * j + n) m

/-- The running minimum after tile `j`, started at `+∞`. -/
def colAcc (b : ℕ) : ℕ → ℕ → EReal
  | 0, m => min ⊤ (colTile s A B b 0 m)
  | j + 1, m => min (colAcc b j m) (colTile s A B b (j + 1) m)

theorem colAcc_eq_inf (b m : ℕ) : ∀ j : ℕ, colAcc s A B b j m = (range (j + 1)).inf fun j' => colTile s A B b j' m
  | 0 => by simp [colAcc]
  | j + 1 => by
    rw [colAcc, colAcc_eq_inf b m j, Finset.range_add_one (n := j + 1), Finset.inf_insert, inf_comm]

/-- After the sixteenth tile the running minimum is the minimum over all 8192 points of `A`. -/
theorem colAcc_last (b m : ℕ) : colAcc s A B b 15 m = (range 8192).inf fun n => dist2 s A B b n m := by
  rw [colAcc_eq_inf]
  exact (inf_range_mul (fun n => dist2 s A B b n m) 512 16).symm

/-- With the map passed through the minimum: the sum over the points of `B` of the smallest mapped distance. -/
theorem col_side (hg : Monotone g) (htop : g ⊤ = ⊤) (b : ℕ) :
    ∑ m ∈ range 8192, g (colAcc s A B b 15 m) = ∑ m ∈ range 8192, (range 8192).inf fun n => g (dist2 s A B b n m) :=
  Finset.sum_congr rfl fun m _ => by rw [colAcc_last]; exact map_inf_range g hg htop _ _

end Cert.ChamferMath

end
-- ==== Proof.TileNat.lean ====
/-
  One tile of the body in natural coordinates.

  If the tile's first block holds points `512 j .. 512 j + 511` of batch `b` of the first cloud and its second block
  holds all the points of batch `b` of the second cloud, then the tile of squared distances is the squared distance of
  the mathematics (the doubled first factors gathered into a doubled inner product), its column minima are the tile's
  column minima, and the running sum grows by the tile's row term.
-/
import proofs.«140482_j19181323944568_2_alg».proof.Proof.Payloads
import proofs.«140482_j19181323944568_2_alg».proof.Proof.ChamferMath
import proofs.«140482_j19181323944568_2_alg».proof.Proof.ClampRoot

noncomputable section

open Idealize.ShloMosaic Idealize.ShloMosaic.ValueIdx

namespace Cert.KernelIdeal.TileNat

open Cert.KernelIdeal Cert.KernelIdeal.Gen Cert.KernelIdeal.Payloads Cert.Chamfer Cert.ChamferMath Cert.LibRangeBlocks Finset

variable (x0 : FVec Ideal S1x3x512 .f32) (x1 : FVec Ideal S1x3x8192 .f32) (A B : ℕ → ℕ → ℕ → EReal) (b j : ℕ)

/-- The tile's entry `(p, q)` is the squared distance between point `512 j + p` and point `q`. -/
theorem dist_nat (h0 : ∀ (k : Fin 3) (p : Fin 512), x0 (ix3 (0 : Fin 1) k p) = A b k.val (512 * j + p.val))
    (h1 : ∀ (k : Fin 3) (q : Fin 8192), x1 (ix3 (0 : Fin 1) k q) = B b k.val q.val) (p : Fin 512) (q : Fin 8192) :
    k0_pay6 (F := Ideal) x0 x1 (ix2 p q) = dist2 two A B b (512 * j + p.val) q.val := by
  rw [tile_dist]
  simp only [h0, h1]
  have e1 := Fin.sum_univ_eq_sum_range (fun k => A b k (512 * j + p.val) * A b k (512 * j + p.val)) 3
  have e2 := Fin.sum_univ_eq_sum_range (fun k => B b k q.val * B b k q.val) 3
  have e3 := Fin.sum_univ_eq_sum_range (fun k => (two * A b k (512 * j + p.val)) * B b k q.val) 3
  rw [e1, e2, e3]
  exact dist2_scaled two A B two_nonneg two_ne_top b (512 * j + p.val) q.val

/-- The tile's column minimum at `q`. -/
theorem colmin_nat (h0 : ∀ (k : Fin 3) (p : Fin 512), x0 (ix3 (0 : Fin 1) k p) = A b k.val (512 * j + p.val))
    (h1 : ∀ (k : Fin 3) (q : Fin 8192), x1 (ix3 (0 : Fin 1) k q) = B b k.val q.val) (q : Fin 8192) :
    k0_pay7 (F := Ideal) x0 x1 (ix2 (0 : Fin 1) q) = colTile two A B b j q.val := by
  rw [tile_colmin]
  simp only [dist_nat x0 x1 A B b j h0 h1]
  exact inf_univ_fin (fun n => dist2 two A B b (512 * j + n) q.val) 512

/-- The running sum after the tile is the previous one plus the tile's row term. -/
theorem rowsum_nat (h0 : ∀ (k : Fin 3) (p : Fin 512), x0 (ix3 (0 : Fin 1) k p) = A b k.val (512 * j + p.val))
    (h1 : ∀ (k : Fin 3) (q : Fin 8192), x1 (ix3 (0 : Fin 1) k q) = B b k.val q.val) (v28 : FVec Ideal S1x1 .f32) :
    k0_pay8 (F := Ideal) x0 x1 v28 (ix2 (0 : Fin 1) (0 : Fin 1))
      = v28 (ix2 (0 : Fin 1) (0 : Fin 1)) + rowTile root two A B b j := by
  rw [tile_rowsum]
  simp only [dist_nat x0 x1 A B b j h0 h1]
  refine congrArg (v28 (ix2 (0 : Fin 1) (0 : Fin 1)) + ·) ?_
  have e : ∀ p : Fin 512, (Finset.univ.inf fun q : Fin 8192 => dist2 two A B b (512 * j + p.val) q.val)
      = rowMin two A B b (512 * j + p.val) :=
    fun p => inf_univ_fin (fun m => dist2 two A B b (512 * j + p.val) m) 8192
  simp only [e]
  exact Fin.sum_univ_eq_sum_range (fun n => root (rowMin two A B b (512 * j + n))) 512

end Cert.KernelIdeal.TileNat

end
-- ==== Proof.Running.lean ====
/-
  The two running values across the grid.

  The grid walks batch `b` (four of them) and, inside a batch, sixteen tiles `j` of 512 points of the first cloud; the
  point of the grid at position `16 b + j` reads block `(b, ·, j)` of the first cloud and block `(b, ·, ·)` of the second.
  By induction on `j`: after that point the running minimum holds, at column `q`, the minimum over the first `j + 1` tiles
  of the squared distances to point `q`, and the running sum holds the sum of the first `j + 1` tiles' row terms. At
  `j = 15` the two results written are the running sum and the sum over the columns of the clamped root of the running
  minimum.
-/
import proofs.«140482_j19181323944568_2_alg».proof.Proof.Gen.KernelIdeal.Frame
import proofs.«140482_j19181323944568_2_alg».proof.Proof.Pieces
import proofs.«140482_j19181323944568_2_alg».proof.Proof.TileNat
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Running

open Cert.KernelIdeal Cert.KernelIdeal.Gen Cert.KernelIdeal.Payloads Cert.KernelIdeal.TileNat Cert.Chamfer Cert.ChamferMath Finset

variable (m : (ℓ : Loc nD τ sig) → Buf (Elt Ideal) ℓ)

/-- The two argument arrays, as the region finds them, read at natural coordinates. -/
abbrev argA (c : Dev nD) : ℕ → ℕ → ℕ → EReal := nat3 (V m c main_arg0 : S4x3x8192.Idx → EReal)
abbrev argB (c : Dev nD) : ℕ → ℕ → ℕ → EReal := nat3 (V m c main_arg1 : S4x3x8192.Idx → EReal)

/-! ## Which block each window reads at a point -/

theorem idxA : ∀ t : Fin cfg0.N, win0_0.index t (0 : Fin 3) = t.val / 16 ∧ win0_0.index t (1 : Fin 3) = 0 ∧ win0_0.index t (2 : Fin 3) = t.val % 16 :=
  (by decide +kernel : ∀ t : Fin grid0.N, _)
theorem idxB : ∀ t : Fin cfg0.N, win0_1.index t (0 : Fin 3) = t.val / 16 ∧ win0_1.index t (1 : Fin 3) = 0 ∧ win0_1.index t (2 : Fin 3) = 0 :=
  (by decide +kernel : ∀ t : Fin grid0.N, _)

/-- The first window's block at point `t`: batch `t / 16`, points `512 (t % 16) ..` of the first cloud. -/
theorem blockA (c : Dev nD) (t : Fin cfg0.N) (k : Fin 3) (p : Fin 512) :
    (iblk m c 0 t : FVec Ideal S1x3x512 .f32) (ix3 (0 : Fin 1) k p) = argA m c (t.val / 16) k.val (512 * (t.val % 16) + p.val) := by
  obtain ⟨e0, e1, e2⟩ := idxA t
  have hN : cfg0.N = 64 := N_0
  have ht := t.isLt
  have hp := p.isLt
  unfold iblk
  rw [View.read_apply]
  unfold argA nat3
  rw [dif_pos ⟨by omega, k.isLt, by omega⟩]
  show V m c main_arg0 _ = V m c main_arg0 _
  congr 1
  funext a; apply Fin.ext
  match a with
  | ⟨0, _⟩ => show win0_0.index t (0 : Fin 3) * 1 + 1 * 0 = t.val / 16; omega
  | ⟨1, _⟩ => show win0_0.index t (1 : Fin 3) * 3 + 1 * k.val = k.val; omega
  | ⟨2, _⟩ => show win0_0.index t (2 : Fin 3) * 512 + 1 * p.val = 512 * (t.val % 16) + p.val; omega

/-- The second window's block at point `t`: batch `t / 16`, all the points of the second cloud. -/
theorem blockB (c : Dev nD) (t : Fin cfg0.N) (k : Fin 3) (q : Fin 8192) :
    (iblk m c 1 t : FVec Ideal S1x3x8192 .f32) (ix3 (0 : Fin 1) k q) = argB m c (t.val / 16) k.val q.val := by
  obtain ⟨e0, e1, e2⟩ := idxB t
  have hN : cfg0.N = 64 := N_0
  have ht := t.isLt
  unfold iblk
  rw [View.read_apply]
  unfold argB nat3
  rw [dif_pos ⟨by omega, k.isLt, q.isLt⟩]
  show V m c main_arg1 _ = V m c main_arg1 _
  congr 1
  funext a; apply Fin.ext
  match a with
  | ⟨0, _⟩ => show win0_1.index t (0 : Fin 3) * 1 + 1 * 0 = t.val / 16; omega
  | ⟨1, _⟩ => show win0_1.index t (1 : Fin 3) * 3 + 1 * k.val = k.val; omega
  | ⟨2, _⟩ => show win0_1.index t (2 : Fin 3) * 8192 + 1 * q.val = q.val; omega

/-- The two blocks at position `16 b + j`. -/
theorem blocks_at (c : Dev nD) (b j : ℕ) (hj : j < 16) (h : 16 * b + j < cfg0.N) :
    (∀ (k : Fin 3) (p : Fin 512), (iblk m c 0 ⟨16 * b + j, h⟩ : FVec Ideal S1x3x512 .f32) (ix3 (0 : Fin 1) k p) = argA m c b k.val (512 * j + p.val))
    ∧ (∀ (k : Fin 3) (q : Fin 8192), (iblk m c 1 ⟨16 * b + j, h⟩ : FVec Ideal S1x3x8192 .f32) (ix3 (0 : Fin 1) k q) = argB m c b k.val q.val) := by
  have d : (16 * b + j) / 16 = b := by omega
  have r : (16 * b + j) % 16 = j := by omega
  refine ⟨fun k p => ?_, fun k q => ?_⟩
  · have e := blockA m c ⟨16 * b + j, h⟩ k p
    dsimp only at e
    rw [d, r] at e
    exact e
  · have e := blockB m c ⟨16 * b + j, h⟩ k q
    dsimp only at e
    rw [d] at e
    exact e

/-! ## The three cases, as values -/

set_option maxHeartbeats 400000 in
theorem at_first (c : Dev nD) (t : Fin cfg0.N) (h0 : t.val % 16 = 0) (h1 : ¬t.val % 16 = 15) :
    (outsAt0 m c t.val t.isLt).2.2.1 = k0_pay1 (F := Ideal) (k0_pay7 (F := Ideal) (iblk m c 0 t) (iblk m c 1 t)) (k0_pay4 (F := Ideal))
    ∧ (outsAt0 m c t.val t.isLt).2.2.2 = k0_pay8 (F := Ideal) (iblk m c 0 t) (iblk m c 1 t) (k0_pay5 (F := Ideal)) := by
  rw [outsAt0_A m c t h0 h1]
  dsimp only
  exact ⟨Pieces.first_min (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t),
    Pieces.first_sum (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)⟩

set_option maxHeartbeats 400000 in
theorem at_middle (c : Dev nD) (t : Fin cfg0.N) (h0 : ¬t.val % 16 = 0) (h1 : ¬t.val % 16 = 15) :
    (outsAt0 m c t.val t.isLt).2.2.1 = k0_pay1 (F := Ideal) (k0_pay7 (F := Ideal) (iblk m c 0 t) (iblk m c 1 t)) (outsAt0 m c (t.val - 1) (Nat.lt_of_le_of_lt (Nat.sub_le _ _) t.isLt)).2.2.1
    ∧ (outsAt0 m c t.val t.isLt).2.2.2 = k0_pay8 (F := Ideal) (iblk m c 0 t) (iblk m c 1 t) (outsAt0 m c (t.val - 1) (Nat.lt_of_le_of_lt (Nat.sub_le _ _) t.isLt)).2.2.2 := by
  rw [outsAt0_B m c t h0 h1]
  dsimp only
  exact ⟨Pieces.middle_min (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.middle_sum (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

set_option maxHeartbeats 400000 in
theorem at_last (c : Dev nD) (t : Fin cfg0.N) (h0 : ¬t.val % 16 = 0) (h1 : t.val % 16 = 15) :
    (outsAt0 m c t.val t.isLt).2.2.1 = k0_pay1 (F := Ideal) (k0_pay7 (F := Ideal) (iblk m c 0 t) (iblk m c 1 t)) (outsAt0 m c (t.val - 1) (Nat.lt_of_le_of_lt (Nat.sub_le _ _) t.isLt)).2.2.1
    ∧ (outsAt0 m c t.val t.isLt).2.2.2 = k0_pay8 (F := Ideal) (iblk m c 0 t) (iblk m c 1 t) (outsAt0 m c (t.val - 1) (Nat.lt_of_le_of_lt (Nat.sub_le _ _) t.isLt)).2.2.2
    ∧ (outsAt0 m c t.val t.isLt).1 = k0_pay3 (F := Ideal) (k0_pay8 (F := Ideal) (iblk m c 0 t) (iblk m c 1 t) (outsAt0 m c (t.val - 1) (Nat.lt_of_le_of_lt (Nat.sub_le _ _) t.isLt)).2.2.2)
    ∧ (outsAt0 m c t.val t.isLt).2.1 = k0_pay2 (F := Ideal) (k0_pay1 (F := Ideal) (k0_pay7 (F := Ideal) (iblk m c 0 t) (iblk m c 1 t)) (outsAt0 m c (t.val - 1) (Nat.lt_of_le_of_lt (Nat.sub_le _ _) t.isLt)).2.2.1) := by
  rw [outsAt0_C m c t h0 h1]
  dsimp only
  exact ⟨Pieces.last_min (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.last_sum (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.last_row_result (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.last_col_result (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-! ## The induction over the tiles of a batch -/

/-- After position `16 b + j` the running minimum and the running sum are those of the first `j + 1` tiles of batch `b`. -/
theorem running (c : Dev nD) (b : ℕ) (hb : b < 4) : ∀ (j : ℕ) (hj : j < 16) (h : 16 * b + j < cfg0.N),
    (∀ q : Fin 8192, ((outsAt0 m c (16 * b + j) h).2.2.1 : FVec Ideal S1x8192 .f32) (ix2 (0 : Fin 1) q)
        = colAcc two (argA m c) (argB m c) b j q.val)
    ∧ ((outsAt0 m c (16 * b + j) h).2.2.2 : FVec Ideal S1x1 .f32) (ix2 (0 : Fin 1) (0 : Fin 1))
        = rowAcc root two (argA m c) (argB m c) b j
  | 0, hj, h => by
    have e0 : (⟨16 * b + 0, h⟩ : Fin cfg0.N).val % 16 = 0 := by dsimp only; omega
    have e1 : ¬(⟨16 * b + 0, h⟩ : Fin cfg0.N).val % 16 = 15 := by dsimp only; omega
    obtain ⟨f0, f1⟩ := at_first m c ⟨16 * b + 0, h⟩ e0 e1
    obtain ⟨hA, hB⟩ := blocks_at m c b 0 hj h
    refine ⟨fun q => ?_, ?_⟩
    · refine (congrFun f0 (ix2 (0 : Fin 1) q)).trans ?_
      rw [upd_min, reset_min,
        colmin_nat (iblk m c 0 ⟨16 * b + 0, h⟩) (iblk m c 1 ⟨16 * b + 0, h⟩) (argA m c) (argB m c) b 0 hA hB q]
      rfl
    · refine (congrFun f1 (ix2 (0 : Fin 1) (0 : Fin 1))).trans ?_
      rw [rowsum_nat (iblk m c 0 ⟨16 * b + 0, h⟩) (iblk m c 1 ⟨16 * b + 0, h⟩) (argA m c) (argB m c) b 0 hA hB (k0_pay5 (F := Ideal)), reset_sum]
      rfl
  | j + 1, hj, h => by
    have hprev : 16 * b + j < cfg0.N := by omega
    obtain ⟨ihc, ihr⟩ := running c b hb j (by omega) hprev
    obtain ⟨hA, hB⟩ := blocks_at m c b (j + 1) hj h
    have e0 : ¬(⟨16 * b + (j + 1), h⟩ : Fin cfg0.N).val % 16 = 0 := by dsimp only; omega
    have key : ((outsAt0 m c (16 * b + (j + 1)) h).2.2.1 = k0_pay1 (F := Ideal) (k0_pay7 (F := Ideal) (iblk m c 0 ⟨16 * b + (j + 1), h⟩) (iblk m c 1 ⟨16 * b + (j + 1), h⟩)) (outsAt0 m c (16 * b + j) hprev).2.2.1)
        ∧ ((outsAt0 m c (16 * b + (j + 1)) h).2.2.2 = k0_pay8 (F := Ideal) (iblk m c 0 ⟨16 * b + (j + 1), h⟩) (iblk m c 1 ⟨16 * b + (j + 1), h⟩) (outsAt0 m c (16 * b + j) hprev).2.2.2) := by
      by_cases hl : (⟨16 * b + (j + 1), h⟩ : Fin cfg0.N).val % 16 = 15
      · obtain ⟨f0, f1, -, -⟩ := at_last m c ⟨16 * b + (j + 1), h⟩ e0 hl
        exact ⟨f0, f1⟩
      · exact at_middle m c ⟨16 * b + (j + 1), h⟩ e0 hl
    obtain ⟨f0, f1⟩ := key
    refine ⟨fun q => ?_, ?_⟩
    · refine (congrFun f0 (ix2 (0 : Fin 1) q)).trans ?_
      rw [upd_min, ihc q,
        colmin_nat (iblk m c 0 ⟨16 * b + (j + 1), h⟩) (iblk m c 1 ⟨16 * b + (j + 1), h⟩) (argA m c) (argB m c) b (j + 1) hA hB q]
      rfl
    · refine (congrFun f1 (ix2 (0 : Fin 1) (0 : Fin 1))).trans ?_
      rw [rowsum_nat (iblk m c 0 ⟨16 * b + (j + 1), h⟩) (iblk m c 1 ⟨16 * b + (j + 1), h⟩) (argA m c) (argB m c) b (j + 1) hA hB
        (outsAt0 m c (16 * b + j) hprev).2.2.2, ihr]
      rfl

/-- At the last tile of batch `b` the two results are the running sum and the column sum of clamped roots of the running minimum. -/
theorem results (c : Dev nD) (b : ℕ) (hb : b < 4) (h : 16 * b + 15 < cfg0.N) :
    ((outsAt0 m c (16 * b + 15) h).1 : FVec Ideal S1x1x1 .f32) (ix3 (0 : Fin 1) (0 : Fin 1) (0 : Fin 1))
        = rowAcc root two (argA m c) (argB m c) b 15
    ∧ ((outsAt0 m c (16 * b + 15) h).2.1 : FVec Ideal S1x1x1 .f32) (ix3 (0 : Fin 1) (0 : Fin 1) (0 : Fin 1))
        = ∑ q ∈ range 8192, root (colAcc two (argA m c) (argB m c) b 15 q) := by
  have e0 : ¬(⟨16 * b + 15, h⟩ : Fin cfg0.N).val % 16 = 0 := by dsimp only; omega
  have e1 : (⟨16 * b + 15, h⟩ : Fin cfg0.N).val % 16 = 15 := by dsimp only; omega
  obtain ⟨f0, f1, f2, f3⟩ := at_last m c ⟨16 * b + 15, h⟩ e0 e1
  obtain ⟨rc, rr⟩ := running m c b hb 15 (by omega) h
  refine ⟨?_, ?_⟩
  · refine (congrFun f2 _).trans ?_
    rw [row_result]
    exact (congrFun f1 _).symm.trans rr
  · refine (congrFun f3 _).trans ?_
    rw [col_result]
    have e : ∀ q : Fin 8192, root ((k0_pay1 (F := Ideal) (k0_pay7 (F := Ideal) (iblk m c 0 ⟨16 * b + 15, h⟩) (iblk m c 1 ⟨16 * b + 15, h⟩))
        (outsAt0 m c ((⟨16 * b + 15, h⟩ : Fin cfg0.N).val - 1) (Nat.lt_of_le_of_lt (Nat.sub_le _ _) (⟨16 * b + 15, h⟩ : Fin cfg0.N).isLt)).2.2.1) (ix2 (0 : Fin 1) q))
        = root (colAcc two (argA m c) (argB m c) b 15 q.val) :=
      fun q => congrArg root ((congrFun f0 _).symm.trans (rc q))
    simp only [e]
    exact Fin.sum_univ_eq_sum_range (fun q => root (colAcc two (argA m c) (argB m c) b 15 q)) 8192

end Cert.KernelIdeal.Running

end
-- ==== Proof.Arrays.lean ====
/-
  From the last tile of each batch to the kernel's scalar result.

  The two results of batch `b` are written back only at the last of its sixteen tiles, into entry `b` of a [4,1,1]
  array each; those four write-backs cover the arrays, so after the region the first array holds each batch's running
  sum and the second each batch's column sum of clamped roots. The lines after the region sum each array over the
  batches from zero, divide by the number of points and add: the shared outer shape of the loss.
-/
import proofs.«140482_j19181323944568_2_alg».proof.Proof.Running
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Running Cert.Chamfer Cert.ChamferMath Finset

variable (m : (ℓ : Loc nD τ sig) → Buf (Elt Ideal) ℓ)

/-- Batch `b`'s total of row terms, and its total of column terms. -/
abbrev rowTot (c : Dev nD) (b : ℕ) : EReal := rowAcc root two (argA m c) (argB m c) b 15
abbrev colTot (c : Dev nD) (b : ℕ) : EReal := ∑ q ∈ range 8192, root (colAcc two (argA m c) (argB m c) b 15 q)

/-- The two result arrays after the region. -/
def rowArr (c : Dev nD) : S4x1x1.Idx → EReal := fun i => rowTot m c (i 0).val
def colArr (c : Dev nD) : S4x1x1.Idx → EReal := fun i => colTot m c (i 0).val

theorem idxR : ∀ t : Fin cfg0.N, win0_2.index t (0 : Fin 3) = t.val / 16 ∧ win0_2.index t (1 : Fin 3) = 0 ∧ win0_2.index t (2 : Fin 3) = 0 :=
  (by decide +kernel : ∀ t : Fin grid0.N, _)
theorem idxC : ∀ t : Fin cfg0.N, win0_3.index t (0 : Fin 3) = t.val / 16 ∧ win0_3.index t (1 : Fin 3) = 0 ∧ win0_3.index t (2 : Fin 3) = 0 :=
  (by decide +kernel : ∀ t : Fin grid0.N, _)

/-! ## What is written back, and where -/

theorem flushedR (c : Dev nD) (t : Fin cfg0.N) (hf : (cfg0.win 2).flush t = true) :
    (dats m 0 c).flushed 2 t = ((cfg0.win 2).blk t).view.read (Elt Ideal) (rowArr m c) := by
  have h15 : t.val % 16 = 15 := (flush0_2 t).mp hf
  have hN : cfg0.N = 64 := N_0
  show (cfg0.win 2).cut (grid0.coords t) ((dats m 0 c).after 2 t) = _
  rw [after0_2]
  obtain ⟨n, hn⟩ := t
  obtain ⟨b, rfl⟩ : ∃ b, n = 16 * b + 15 := ⟨n / 16, by dsimp only at h15; omega⟩
  have hb : b < 4 := by omega
  obtain ⟨e0, e1, e2⟩ := idxR ⟨16 * b + 15, hn⟩
  funext y
  have hy : y = ix3 (0 : Fin 1) (0 : Fin 1) (0 : Fin 1) := funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega)
  subst hy
  rw [View.read_apply]
  refine ((results m c b hb hn).1).trans ?_
  show rowTot m c b = rowTot m c ((((cfg0.win 2).blk ⟨16 * b + 15, hn⟩).view.emb (ix3 (0 : Fin 1) (0 : Fin 1) (0 : Fin 1))) 0).val
  congr 1
  show b = win0_2.index ⟨16 * b + 15, hn⟩ (0 : Fin 3) * 1 + 1 * 0
  rw [e0]; dsimp only; omega

theorem flushedC (c : Dev nD) (t : Fin cfg0.N) (hf : (cfg0.win 3).flush t = true) :
    (dats m 0 c).flushed 3 t = ((cfg0.win 3).blk t).view.read (Elt Ideal) (colArr m c) := by
  have h15 : t.val % 16 = 15 := (flush0_3 t).mp hf
  have hN : cfg0.N = 64 := N_0
  show (cfg0.win 3).cut (grid0.coords t) ((dats m 0 c).after 3 t) = _
  rw [after0_3]
  obtain ⟨n, hn⟩ := t
  obtain ⟨b, rfl⟩ : ∃ b, n = 16 * b + 15 := ⟨n / 16, by dsimp only at h15; omega⟩
  have hb : b < 4 := by omega
  obtain ⟨e0, e1, e2⟩ := idxC ⟨16 * b + 15, hn⟩
  funext y
  have hy : y = ix3 (0 : Fin 1) (0 : Fin 1) (0 : Fin 1) := funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega)
  subst hy
  rw [View.read_apply]
  refine ((results m c b hb hn).2).trans ?_
  show colTot m c b = colTot m c ((((cfg0.win 3).blk ⟨16 * b + 15, hn⟩).view.emb (ix3 (0 : Fin 1) (0 : Fin 1) (0 : Fin 1))) 0).val
  congr 1
  show b = win0_3.index ⟨16 * b + 15, hn⟩ (0 : Fin 3) * 1 + 1 * 0
  rw [e0]; dsimp only; omega

theorem coverR (c : Dev nD) (i : S4x1x1.Idx) :
    ∃ t : Fin cfg0.N, (cfg0.win 2).flush t = true ∧ i ∈ ((cfg0.win 2).blk t).view.set := by
  have hN : cfg0.N = 64 := N_0
  have h0 : (i 0).val < 4 := (i 0).isLt
  have h1 : (i 1).val < 1 := (i 1).isLt
  have h2 : (i 2).val < 1 := (i 2).isLt
  have ht : 16 * (i 0).val + 15 < cfg0.N := by omega
  obtain ⟨e0, e1, e2⟩ := idxR ⟨16 * (i 0).val + 15, ht⟩
  refine ⟨⟨16 * (i 0).val + 15, ht⟩, (flush0_2 _).mpr (by dsimp only; omega), ?_⟩
  show i ∈ ((View.whole main_v0_0).slice (win0_2.rect ⟨16 * (i 0).val + 15, ht⟩)).set
  rw [View.set_slice_whole, Rect.mem_set_unit]
  intro a
  match a with
  | ⟨0, _⟩ =>
    show win0_2.index ⟨16 * (i 0).val + 15, ht⟩ (0 : Fin 3) * 1 ≤ (i 0).val ∧ (i 0).val < win0_2.index ⟨16 * (i 0).val + 15, ht⟩ (0 : Fin 3) * 1 + 1
    rw [e0]; dsimp only; omega
  | ⟨1, _⟩ =>
    show win0_2.index ⟨16 * (i 0).val + 15, ht⟩ (1 : Fin 3) * 1 ≤ (i 1).val ∧ (i 1).val < win0_2.index ⟨16 * (i 0).val + 15, ht⟩ (1 : Fin 3) * 1 + 1
    rw [e1]; omega
  | ⟨2, _⟩ =>
    show win0_2.index ⟨16 * (i 0).val + 15, ht⟩ (2 : Fin 3) * 1 ≤ (i 2).val ∧ (i 2).val < win0_2.index ⟨16 * (i 0).val + 15, ht⟩ (2 : Fin 3) * 1 + 1
    rw [e2]; omega

theorem coverC (c : Dev nD) (i : S4x1x1.Idx) :
    ∃ t : Fin cfg0.N, (cfg0.win 3).flush t = true ∧ i ∈ ((cfg0.win 3).blk t).view.set := by
  have hN : cfg0.N = 64 := N_0
  have h0 : (i 0).val < 4 := (i 0).isLt
  have h1 : (i 1).val < 1 := (i 1).isLt
  have h2 : (i 2).val < 1 := (i 2).isLt
  have ht : 16 * (i 0).val + 15 < cfg0.N := by omega
  obtain ⟨e0, e1, e2⟩ := idxC ⟨16 * (i 0).val + 15, ht⟩
  refine ⟨⟨16 * (i 0).val + 15, ht⟩, (flush0_3 _).mpr (by dsimp only; omega), ?_⟩
  show i ∈ ((View.whole main_v0_1).slice (win0_3.rect ⟨16 * (i 0).val + 15, ht⟩)).set
  rw [View.set_slice_whole, Rect.mem_set_unit]
  intro a
  match a with
  | ⟨0, _⟩ =>
    show win0_3.index ⟨16 * (i 0).val + 15, ht⟩ (0 : Fin 3) * 1 ≤ (i 0).val ∧ (i 0).val < win0_3.index ⟨16 * (i 0).val + 15, ht⟩ (0 : Fin 3) * 1 + 1
    rw [e0]; dsimp only; omega
  | ⟨1, _⟩ =>
    show win0_3.index ⟨16 * (i 0).val + 15, ht⟩ (1 : Fin 3) * 1 ≤ (i 1).val ∧ (i 1).val < win0_3.index ⟨16 * (i 0).val + 15, ht⟩ (1 : Fin 3) * 1 + 1
    rw [e1]; omega
  | ⟨2, _⟩ =>
    show win0_3.index ⟨16 * (i 0).val + 15, ht⟩ (2 : Fin 3) * 1 ≤ (i 2).val ∧ (i 2).val < win0_3.index ⟨16 * (i 0).val + 15, ht⟩ (2 : Fin 3) * 1 + 1
    rw [e2]; omega

/-- After the region the first result array holds each batch's running sum, -/
theorem finalR (c : Dev nD) : (dats m 0 c).arrAt 2 cfg0.N = rowArr m c :=
  (dats m 0 c).arrAt_eq_of_cover 2 (rowArr m c) (flushedR m c) (coverR c)

/-- and the second each batch's column sum of clamped roots. -/
theorem finalC (c : Dev nD) : (dats m 0 c).arrAt 3 cfg0.N = colArr m c :=
  (dats m 0 c).arrAt_eq_of_cover 3 (colArr m c) (flushedC m c) (coverC c)

/-! ## The lines after the region -/

/-- The scalar the lines after the region compute from the two result arrays. -/
def tailOf (R C : (⟨S4x1x1, .f32⟩ : BufTy).Contents (Elt Ideal)) : (⟨S_, .f32⟩ : BufTy).Contents (Elt Ideal) :=
  addf (Host.divf (F := Ideal) (Host.reduceAdd (F := Ideal) R (constant (F := Ideal) S_ .f32 0x00000000#32) reducesTo_S4x1x1_S_d0_1_2 h_S_) (constant (F := Ideal) S_ .f32 0x47000000#32))
    (Host.divf (F := Ideal) (Host.reduceAdd (F := Ideal) C (constant (F := Ideal) S_ .f32 0x00000000#32) reducesTo_S4x1x1_S_d0_1_2 h_S_) (constant (F := Ideal) S_ .f32 0x47000000#32))

theorem tail_eq (c : Dev nD) :
    Pipeline.afterTail₀ cfgs (dats m) 0 (V0 m) [hostOps1] c main_v5 = tailOf (rowArr m c) (colArr m c) := by
  unfold Pipeline.afterTail₀
  show StableHlo.after hostOps1 _ (Proc.devRef .tc main_v5) = _
  after_results
  have eR : Pipeline.withArrays (cfgs 0).spec c (V0 m c) (fun w => (dats m 0 c).arrAt w (cfgs 0).N) (Proc.devRef .tc main_v0_0) = rowArr m c :=
    (Pipeline.withArrays_arr spec0 launch0.win.arr_inj c _ _ 2).trans (finalR m c)
  have eC : Pipeline.withArrays (cfgs 0).spec c (V0 m c) (fun w => (dats m 0 c).arrAt w (cfgs 0).N) (Proc.devRef .tc main_v0_1) = colArr m c :=
    (Pipeline.withArrays_arr spec0 launch0.win.arr_inj c _ _ 3).trans (finalC m c)
  rw [eR, eC]
  rfl

/-- A [4,1,1] array is indexed by its first coordinate. -/
def batchEquiv : S4x1x1.Idx ≃ Fin 4 where
  toFun i := i 0
  invFun b := ix3 b (0 : Fin 1) (0 : Fin 1)
  left_inv i := funext fun a => Fin.ext (by
    match a with
    | ⟨0, _⟩ => rfl
    | ⟨1, _⟩ => have h : (i 1).val < 1 := (i 1).isLt; show 0 = (i 1).val; omega
    | ⟨2, _⟩ => have h : (i 2).val < 1 := (i 2).isLt; show 0 = (i 2).val; omega)
  right_inv _ := rfl

/-- The sum over a [4,1,1] array whose entry depends on the batch only is the sum over the four batches. -/
theorem sum_batches (f : ℕ → EReal) : (∑ i : S4x1x1.Idx, f (i 0).val) = ∑ b ∈ range 4, f b := by
  rw [← Equiv.sum_comp batchEquiv.symm (fun i : S4x1x1.Idx => f (i 0).val)]
  exact Fin.sum_univ_eq_sum_range f 4

/-- The lines after the region, read: the shared outer shape of the loss at the two families of batch totals. -/
theorem tailOf_apply (c : Dev nD) (i : S_.Idx) : tailOf (rowArr m c) (colArr m c) i = loss (rowTot m c) (colTot m c) := by
  have hR := Ideal.hostReduceAdd_total reducesTo_S4x1x1_S_d0_1_2 (fun b => b.elim0) (rowArr m c) (Ideal.ofBits .f32 0x00000000#32) i
  have hC := Ideal.hostReduceAdd_total reducesTo_S4x1x1_S_d0_1_2 (fun b => b.elim0) (colArr m c) (Ideal.ofBits .f32 0x00000000#32) i
  have sR : (∑ j : S4x1x1.Idx, rowArr m c j) = ∑ b ∈ range 4, rowTot m c b := sum_batches (rowTot m c)
  have sC : (∑ j : S4x1x1.Idx, colArr m c j) = ∑ b ∈ range 4, colTot m c b := sum_batches (colTot m c)
  rw [sR] at hR
  rw [sC] at hC
  show Ideal.div (Ideal.hostReduceAdd reducesTo_S4x1x1_S_d0_1_2 (rowArr m c) (Ideal.ofBits .f32 0x00000000#32) i) (Ideal.ofBits .f32 0x47000000#32)
      + Ideal.div (Ideal.hostReduceAdd reducesTo_S4x1x1_S_d0_1_2 (colArr m c) (Ideal.ofBits .f32 0x00000000#32) i) (Ideal.ofBits .f32 0x47000000#32) = _
  rw [hR, hC]
  rfl

/-! ## The kernel's run, read -/

/-- Every weakly fair execution of the idealized kernel terminates with its result at the loss of the batch totals and
    its argument arrays unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v5) = (fun _ => loss (rowTot m c) (colTot m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v5 (Pipeline.mem_restRefs_of main_v5 (by decide) (by decide))).trans
        ((tail_eq m c).trans (funext fun i => tailOf_apply m c i)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Arrays

end
-- ==== Proof.RefRead.lean ====
/-
  The reference's result as a function of its two argument arrays.

  The reference transposes the clouds to points-by-coordinates, forms every squared distance
  `|a_n|² + |b_m|² − 2 ⟨a_n, b_m⟩`, takes the clamped root of each, and then the minimum along the second cloud (for each
  point of the first) and along the first cloud (for each point of the second); each family of minima is summed, from
  zero, divided by the number of points, and the two quotients are added. Read one operation at a time through the
  generated read-at-an-index lemmas; the two minimum reductions are folds of `min` from `+∞` along one axis.
-/
import proofs.«140482_j19181323944568_2_alg».proof.Proof.Gen.ReferenceIdeal.Read
import proofs.«140482_j19181323944568_2_alg».proof.Proof.ClampRoot
import proofs.«140482_j19181323944568_2_alg».proof.Proof.ChamferMath

set_option maxRecDepth 16384

noncomputable section

open Idealize.ShloMosaic Idealize.ShloMosaic.TcCoe Idealize.SL.Sem Idealize.ShloMosaic.ValueIdx

namespace Cert.ReferenceIdeal.RefRead

open Cert.ReferenceIdeal Cert.ReferenceIdeal.Gen Cert.ReferenceIdeal.Read Cert.Chamfer Cert.ChamferMath Cert.LibRangeBlocks Finset

variable (x0 x1 : (⟨S4x3x8192, .f32⟩ : BufTy).Contents (Elt Ideal))

/-- The clamped root of the squared distance between point `n` of the first cloud and point `m` of the second. -/
theorem dist_entry (b : Fin 4) (n m : Fin 8192) :
    val_main_v17 (F := Ideal) x0 x1 (ix3 b n m) = root (dist2 two (nat3 x0) (nat3 x1) b.val n.val m.val) := by
  have e_p : ∀ k : Fin 3, idx_main_v0 (idx_main_v3 (idx_main_v7 (idx_main_v9 (ix3 b n m))) k) = ix3 b k n :=
    fun k => funext fun a => Fin.ext (by match a with | ⟨0, _⟩ => rfl | ⟨1, _⟩ => rfl | ⟨2, _⟩ => rfl)
  have e_t : ∀ k : Fin 3, idx_main_v1 (idx_main_v5 (idx_main_v8 (idx_main_v10 (ix3 b n m))) k) = ix3 b k m :=
    fun k => funext fun a => Fin.ext (by match a with | ⟨0, _⟩ => rfl | ⟨1, _⟩ => rfl | ⟨2, _⟩ => rfl)
  have e_l : ∀ k : Fin 3, idx_main_v0 (lidx_main_v6 (ix3 b n m) k) = ix3 b k n :=
    fun k => funext fun a => Fin.ext (by match a with | ⟨0, _⟩ => rfl | ⟨1, _⟩ => rfl | ⟨2, _⟩ => rfl)
  have e_r : ∀ k : Fin 3, idx_main_v1 (ridx_main_v6 (ix3 b n m) k) = ix3 b k m :=
    fun k => funext fun a => Fin.ext (by match a with | ⟨0, _⟩ => rfl | ⟨1, _⟩ => rfl | ⟨2, _⟩ => rfl)
  simp only [val_main_v17_apply, val_main_v16_apply, val_main_v14_apply, val_main_v11_apply, val_main_v9_apply,
    val_main_v7_apply, val_main_v3_apply, val_main_v10_apply, val_main_v8_apply, val_main_v5_apply, val_main_v13_apply,
    val_main_v12_apply, val_main_v6_apply, val_main_v15_apply, val_main_v2_apply, val_main_v4_apply, val_main_v0_apply,
    val_main_v1_apply, val_main_cst_apply, val_main_cst_0_apply, val_main_cst_1_apply, val_main_cst_2_apply, e_p, e_t, e_l, e_r]
  rw [root_eq]
  simp only [Ideal.hostUnary_sqrt_def, Ideal.maximumf_def, Ideal.subf_def, Ideal.addf_def, Ideal.mulf_def, Ideal.ofBits_def,
    Ideal.ofBits_zero_f32, zero_add, ← nat3_apply x0, ← nat3_apply x1]
  have e1 := Fin.sum_univ_eq_sum_range (fun k => nat3 x0 b.val k n.val * nat3 x0 b.val k n.val) 3
  have e2 := Fin.sum_univ_eq_sum_range (fun k => nat3 x1 b.val k m.val * nat3 x1 b.val k m.val) 3
  have e3 := Fin.sum_univ_eq_sum_range (fun k => nat3 x0 b.val k n.val * nat3 x1 b.val k m.val) 3
  rw [e1, e2, e3]
  rfl

/-- For each point of the first cloud, the smallest clamped root of its squared distances to the second cloud. -/
theorem row_min (b : Fin 4) (n : Fin 8192) :
    val_main_v18 (F := Ideal) x0 x1 (ix2 b n) = (range 8192).inf fun m => root (dist2 two (nat3 x0) (nat3 x1) b.val n.val m) := by
  have hred : S4x8192x8192.Reduces [2] S4x8192 := by decide
  unfold val_main_v18
  refine (Host.reduce_eq_fold_single (FloatOps.minimumf (F := Ideal) (φ := .f32)) (val_main_v17 (F := Ideal) x0 x1) (val_main_cst_3 (F := Ideal))
    reducesTo_S4x8192x8192_S4x8192_d2 hred h_S_ (ix2 b n)).trans ?_
  refine (fold_minimumf _ _).trans ?_
  have e : ∀ k : Fin 8192, (val_main_v17 (F := Ideal) x0 x1 ∘ hred.lift (ix2 b n)) k
      = root (dist2 two (nat3 x0) (nat3 x1) b.val n.val k.val) := fun k =>
    (congrArg (val_main_v17 (F := Ideal) x0 x1)
      (funext fun a => Fin.ext (by match a with | ⟨0, _⟩ => rfl | ⟨1, _⟩ => rfl | ⟨2, _⟩ => rfl) : hred.lift (ix2 b n) k = ix3 b n k)).trans
      (dist_entry x0 x1 b n k)
  refine (Finset.inf_congr rfl fun k _ => e k).trans ?_
  exact inf_univ_fin (fun m => root (dist2 two (nat3 x0) (nat3 x1) b.val n.val m)) 8192

/-- For each point of the second cloud, the smallest clamped root of its squared distances to the first cloud. -/
theorem col_min (b : Fin 4) (q : Fin 8192) :
    val_main_v21 (F := Ideal) x0 x1 (ix2 b q) = (range 8192).inf fun n => root (dist2 two (nat3 x0) (nat3 x1) b.val n q.val) := by
  have hred : S4x8192x8192.Reduces [1] S4x8192 := by decide
  unfold val_main_v21
  refine (Host.reduce_eq_fold_single (FloatOps.minimumf (F := Ideal) (φ := .f32)) (val_main_v17 (F := Ideal) x0 x1) (val_main_cst_6 (F := Ideal))
    reducesTo_S4x8192x8192_S4x8192_d1 hred h_S_ (ix2 b q)).trans ?_
  refine (fold_minimumf _ _).trans ?_
  have e : ∀ k : Fin 8192, (val_main_v17 (F := Ideal) x0 x1 ∘ hred.lift (ix2 b q)) k
      = root (dist2 two (nat3 x0) (nat3 x1) b.val k.val q.val) := fun k =>
    (congrArg (val_main_v17 (F := Ideal) x0 x1)
      (funext fun a => Fin.ext (by match a with | ⟨0, _⟩ => rfl | ⟨1, _⟩ => rfl | ⟨2, _⟩ => rfl) : hred.lift (ix2 b q) k = ix3 b k q)).trans
      (dist_entry x0 x1 b k q)
  refine (Finset.inf_congr rfl fun k _ => e k).trans ?_
  exact inf_univ_fin (fun n => root (dist2 two (nat3 x0) (nat3 x1) b.val n q.val)) 8192

/-- A double sum over batches and points, from coordinates to plain numbers. -/
theorem sum_fin2 (f : ℕ → ℕ → EReal) : (∑ a : Fin 4, ∑ n : Fin 8192, f a.val n.val) = ∑ a ∈ range 4, ∑ n ∈ range 8192, f a n := by
  rw [← Fin.sum_univ_eq_sum_range (fun a => ∑ n ∈ range 8192, f a n) 4]
  exact Finset.sum_congr rfl fun a _ => Fin.sum_univ_eq_sum_range (fun n => f a.val n) 8192

/-- Each batch's total of smallest distances from the first cloud, and from the second. -/
abbrev refRow (b : ℕ) : EReal := ∑ n ∈ range 8192, (range 8192).inf fun m => root (dist2 two (nat3 x0) (nat3 x1) b n m)
abbrev refCol (b : ℕ) : EReal := ∑ q ∈ range 8192, (range 8192).inf fun n => root (dist2 two (nat3 x0) (nat3 x1) b n q)

/-- The reference's result: the shared outer shape of the loss at those totals. -/
theorem result_apply (i : S_.Idx) : val_main_v24 (F := Ideal) x0 x1 i = loss (refRow x0 x1) (refCol x0 x1) := by
  rw [val_main_v24_apply, val_main_v20_apply, val_main_v23_apply, val_main_v19_apply, val_main_v22_apply, sum_idx2, sum_idx2]
  simp only [row_min x0 x1, col_min x0 x1, val_main_cst_4_apply, val_main_cst_5_apply, val_main_cst_7_apply, val_main_cst_8_apply]
  rw [sum_fin2 (fun b n => (range 8192).inf fun m => root (dist2 two (nat3 x0) (nat3 x1) b n m)),
    sum_fin2 (fun b q => (range 8192).inf fun n => root (dist2 two (nat3 x0) (nat3 x1) b n q))]
  rfl

end Cert.ReferenceIdeal.RefRead

end
-- ==== Proof.Claims.lean ====
/-
  The five conjuncts of the claim.

  The three frames are the generated ones (the reference's is its generated run with the result dropped); the ideal pass
  rewrote nothing, so `preserves` is `True`. For `algebraic`: the idealized kernel ends with its result at the shared
  outer shape of the loss applied to each batch's running sum after its sixteenth tile and each batch's column sum of
  clamped roots of the running minimum; the reference ends at the same shape applied to each batch's sum, over the points
  of one cloud, of the smallest clamped root of the squared distances to the other cloud. The two families of batch totals
  agree: sixteen tiles of 512 points are all 8192 points, a running minimum from `+∞` over the tiles is the minimum over
  all points, the clamped root is monotone and fixes `+∞` so it passes through the minimum, and doubling the first factor
  of every product of the inner product doubles the inner product. None of this needs the inputs to be finite.
-/
import proofs.«140482_j19181323944568_2_alg».proof.Defs
import proofs.«140482_j19181323944568_2_alg».proof.Proof.Gen.Kernel.Frame
import proofs.«140482_j19181323944568_2_alg».proof.Proof.Gen.KernelIdeal.Frame
import proofs.«140482_j19181323944568_2_alg».proof.Proof.Gen.ReferenceIdeal.Run
import proofs.«140482_j19181323944568_2_alg».proof.Proof.Gen.Pre_finite_inputs
import proofs.«140482_j19181323944568_2_alg».proof.Proof.Arrays
import proofs.«140482_j19181323944568_2_alg».proof.Proof.RefRead

noncomputable section

open Idealize.ShloMosaic Idealize.ShloMosaic.TcCoe Idealize.SL.Sem

namespace Cert.Proof.Claims

open Cert.Chamfer Cert.ChamferMath Finset

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The tiled totals are the plain totals, for any two clouds. -/
theorem totals_agree (A B : ℕ → ℕ → ℕ → EReal) :
    loss (fun b => rowAcc root two A B b 15) (fun b => ∑ q ∈ range 8192, root (colAcc two A B b 15 q))
      = loss (fun b => ∑ n ∈ range 8192, (range 8192).inf fun m => root (dist2 two A B b n m))
          (fun b => ∑ q ∈ range 8192, (range 8192).inf fun n => root (dist2 two A B b n q)) := by
  have hr : (fun b => rowAcc root two A B b 15) = fun b => ∑ n ∈ range 8192, (range 8192).inf fun m => root (dist2 two A B b n m) :=
    funext fun b => row_side root two A B root_mono root_top b
  have hc : (fun b => ∑ q ∈ range 8192, root (colAcc two A B b 15 q)) = fun b => ∑ q ∈ range 8192, (range 8192).inf fun n => root (dist2 two A B b n q) :=
    funext fun b => col_side root two A B root_mono root_top b
  rw [hr, hc]

theorem algebraic : Cert.algebraic_KernelIdeal_ReferenceIdeal := by
  intro m ρ m' ρ' _ hagree
  refine ⟨fun c => (fun _ => loss (Cert.KernelIdeal.Arrays.rowTot m c) (Cert.KernelIdeal.Arrays.colTot m c)),
    Cert.KernelIdeal.Arrays.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2]
  funext i
  rw [Cert.ReferenceIdeal.RefRead.result_apply]
  exact (totals_agree _ _).symm

end Cert.Proof.Claims

end
-- ==== Proof.lean ====
/-
  The symmetric nearest-neighbour distance between two point clouds, tiled against plain.

  Both programs compute, for two clouds of 8192 points in four batches, the mean over the first cloud of each point's
  distance to its nearest point of the second cloud plus the same mean the other way round, with squared distances written
  `|a|² + |b|² − 2⟨a, b⟩`, clamped at zero before the square root. The kernel walks the first cloud in sixteen tiles of 512
  points per batch, keeping a running minimum per point of the second cloud and a running sum of the tiles' row terms, and
  takes clamped roots only of minima; the reference takes the clamped root of every squared distance and then the minima.
  On the extended reals the two are one function of the inputs: Proof/Claims.lean has the five conjuncts, over
  Proof/Pieces.lean and Proof/Payloads.lean (what the body leaves, and its arithmetic entry by entry), Proof/Running.lean
  (the induction over the tiles), Proof/Arrays.lean (the result arrays and the lines after the region), Proof/RefRead.lean
  (the reference read one operation at a time) and Proof/ChamferMath.lean (the mathematics that joins them).
-/
import proofs.«140482_j19181323944568_2_alg».proof.Defs
import proofs.«140482_j19181323944568_2_alg».proof.Proof.Claims
import proofs.«140482_j19181323944568_2_alg».proof.Proof.Gen.Kernel
import proofs.«140482_j19181323944568_2_alg».proof.Proof.Gen.KernelIdeal
import proofs.«140482_j19181323944568_2_alg».proof.Proof.Gen.ReferenceIdeal
import proofs.«140482_j19181323944568_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_ideal, Claims.frame_reference, Claims.preserves, Claims.algebraic⟩

end Cert.Proof

end
